-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v65)) (v2 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_v43) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S409600x100 : Shape := ⟨2, ![409600, 100]⟩
abbrev S256x100 : Shape := ⟨2, ![256, 100]⟩
abbrev S256 : Shape := ⟨1, ![256]⟩
abbrev S256x256 : Shape := ⟨2, ![256, 256]⟩
abbrev S47x256 : Shape := ⟨2, ![47, 256]⟩
abbrev S47 : Shape := ⟨1, ![47]⟩
abbrev S1536000 : Shape := ⟨1, ![1536000]⟩
abbrev S256000 : Shape := ⟨1, ![256000]⟩
abbrev S40960 : Shape := ⟨1, ![40960]⟩
abbrev S_ : Shape := ⟨0, ![]⟩

class Facts : Prop where
  bcast_S_S409600x100 : S_.BroadcastsInDim S409600x100 (![] : Fin 0 → Fin S409600x100.rank)
  reducesTo_S409600x100_S_d0_1 : S409600x100.ReducesTo [0, 1] S_
  h_S_ : 0 < S_.numel
  bcast_S_S256x100 : S_.BroadcastsInDim S256x100 (![] : Fin 0 → Fin S256x100.rank)
  reducesTo_S256x100_S_d0_1 : S256x100.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S47x256 : S_.BroadcastsInDim S47x256 (![] : Fin 0 → Fin S47x256.rank)
  reducesTo_S47x256_S_d0_1 : S47x256.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg7 : FVec F S47x256 .f32) (main_arg8 : FVec F S47 .f32) (main_arg9 : FVec F S47x256 .f32) (main_v33 : IVec S_ 1) : IVec S_ 1 :=
  let main_v34 : FVec F S47x256 .f32 := Host.absf main_arg7
  let main_cst_12 : FVec F S_ .f32 := constant S_ .f32 0x7F800000#32
  let main_v35 : FVec F S47x256 .f32 := broadcastInDim S47x256 ![] bcast_S_S47x256 main_cst_12
  let main_v36 : IVec S47x256 1 := cmpf .olt main_v34 main_v35
  let main_c_13 : IVec S_ 1 := constantI S_ 1 1#1
  let main_v37 : IVec S_ 1 := (fun x v => Host.reduce IntOp.andi x v reducesTo_S47x256_S_d0_1 h_S_) main_v36 main_c_13
  let main_v38 : IVec S_ 1 := andi main_v33 main_v37
  let main_v39 : FVec F S47 .f32 := Host.absf main_arg8
  let main_cst_14 : FVec F S_ .f32 := constant S_ .f32 0x7F800000#32
  let main_v40 : FVec F S47 .f32 := broadcastInDim S47 ![] bcast_S_S47 main_cst_14
  let main_v41 : IVec S47 1 := cmpf .olt main_v39 main_v40
  let main_c_15 : IVec S_ 1 := constantI S_ 1 1#1
  let main_v42 : IVec S_ 1 := (fun x v => Host.reduce IntOp.andi x v reducesTo_S47_S_d0 h_S_) main_v41 main_c_15
  let main_v43 : IVec S_ 1 := andi main_v38 main_v42
  let main_v44 : FVec F S47x256 .f32 := Host.absf main_arg9
  let main_cst_16 : FVec F S_ .f32 := constant S_ .f32 0x7F800000#32
  let main_v45 : FVec F S47x256 .f32 := broadcastInDim S47x256 ![] bcast_S_S47x256 main_cst_16
  let main_v46 : IVec S47x256 1 := cmpf .olt main_v44 main_v45
  let main_c_17 : IVec S_ 1 := constantI S_ 1 1#1
  let main_v47 : IVec S_ 1 := (fun x v => Host.reduce IntOp.andi x v reducesTo_S47x256_S_d0_1 h_S_) main_v46 main_c_17
  let main_v48 : IVec S_ 1 := andi main_v43 main_v47
  main_v48

def fn_part1 {F : FTy → Type} [FloatOps F] (main_arg4 : FVec F S256x256 .f32) (main_arg5 : FVec F S256 .f32) (main_arg6 : FVec F S256x256 .f32) (main_arg7 : FVec F S47x256 .f32) (main_arg8 : FVec F S47 .f32) (main_arg9 : FVec F S47x256 .f32) (main_v13 : IVec S_ 1) (main_v16 : IVec S256x100 1) : IVec S_ 1 :=
  let main_c_5 : IVec S_ 1 := constantI S_ 1 1#1
  let main_v17 : IVec S_ 1 := (fun x v => Host.reduce IntOp.andi x v reducesTo_S256x100_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S409600x100 .f32) (main_arg1 : FVec F S256x100 .f32) (main_arg2 : FVec F S256 .f32) (main_arg3 : FVec F S256x100 .f32) (main_arg4 : FVec F S256x256 .f32) (main_arg5 : FVec F S256 .f32) (main_arg6 : FVec F S256x256 .f32) (main_arg7 : FVec F S47x256 .f32) (main_arg8 : FVec F S47 .f32) (main_arg9 : FVec F S47x256 .f32) (main_arg10 : IVec S1536000 32) (main_arg11 : IVec S1536000 32) (main_arg12 : IVec S256000 32) (main_arg13 : IVec S256000 32) (main_arg14 : IVec S40960 32) (main_arg15 : IVec S40960 32) : IVec S_ 1 :=
  let main_v0 : FVec F S409600x100 .f32 := Host.absf main_arg0
  let main_cst : FVec F S_ .f32 := constant S_ .f32 0x7F800000#32
  let main_v1 : FVec F S409600x100 .f32 := broadcastInDim S409600x100 ![] bcast_S_S409600x100 main_cst
  let main_v2 : IVec S409600x100 1 := cmpf .olt main_v0 main_v1
  let main_c : IVec S_ 1 := constantI S_ 1 1#1
  let main_v3 : IVec S_ 1 := (fun x v => Host.reduce IntOp.andi x v reducesTo_S409600x100_S_d0_1 h_S_) main_v2 main_c
  let main_v4 : FVec F S256x100 .f32 := Host.absf main_arg1
  let main_cst_0 : FVec F S_ .f32 := constant S_ .f32 0x7F800000#32
  let main_v5 : FVec F S256x100 .f32 := broadcastInDim S256x100 ![] bcast_S_S256x100 main_cst_0
  let main_v6 : IVec S256x100 1 := cmpf .olt main_v4 main_v5
  let main_c_1 : IVec S_ 1 := constantI S_ 1 1#1
  let main_v7 : IVec S_ 1 := (fun x v => Host.reduce IntOp.andi x v reducesTo_S256x100_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x100 .f32 := Host.absf main_arg3
  let main_cst_4 : FVec F S_ .f32 := constant S_ .f32 0x7F800000#32
  let main_v15 : FVec F S256x100 .f32 := broadcastInDim S256x100 ![] bcast_S_S256x100 main_cst_4
  let main_v16 : IVec S256x100 1 := cmpf .olt main_v14 main_v15
  fn_part1 (F := F) main_arg4 main_arg5 main_arg6 main_arg7 main_arg8 main_arg9 main_v13 main_v16
-- ==== Kernel.lean ====
abbrev S409600x100 : Shape := ⟨2, ![409600, 100]⟩
abbrev S256x100 : Shape := ⟨2, ![256, 100]⟩
abbrev S256 : Shape := ⟨1, ![256]⟩
abbrev S256x256 : Shape := ⟨2, ![256, 256]⟩
abbrev S47x256 : Shape := ⟨2, ![47, 256]⟩
abbrev S47 : Shape := ⟨1, ![47]⟩
abbrev S1536000 : Shape := ⟨1, ![1536000]⟩
abbrev S256000 : Shape := ⟨1, ![256000]⟩
abbrev S40960 : Shape := ⟨1, ![40960]⟩
abbrev S_ : Shape := ⟨0, ![]⟩
abbrev S1536000x1 : Shape := ⟨2, ![1536000, 1]⟩
abbrev S1536000x100 : Shape := ⟨2, ![1536000, 100]⟩
abbrev S102400x100 : Shape := ⟨2, ![102400, 100]⟩
abbrev S102400 : Shape := ⟨1, ![102400]⟩
abbrev S102400x1 : Shape := ⟨2, ![102400, 1]⟩
abbrev S1x256 : Shape := ⟨2, ![1, 256]⟩
abbrev S102400x256 : Shape := ⟨2, ![102400, 256]⟩
abbrev S2048x100 : Shape := ⟨2, ![2048, 100]⟩
abbrev S2048x256 : Shape := ⟨2, ![2048, 256]⟩
abbrev S256000x1 : Shape := ⟨2, ![256000, 1]⟩
abbrev S256000x256 : Shape := ⟨2, ![256000, 256]⟩
abbrev S25600x256 : Shape := ⟨2, ![25600, 256]⟩
abbrev S25600 : Shape := ⟨1, ![25600]⟩
abbrev S25600x1 : Shape := ⟨2, ![25600, 1]⟩
abbrev S2560x256 : Shape := ⟨2, ![2560, 256]⟩
abbrev S40960x1 : Shape := ⟨2, ![40960, 1]⟩
abbrev S40960x256 : Shape := ⟨2, ![40960, 256]⟩
abbrev S4096x256 : Shape := ⟨2, ![4096, 256]⟩
abbrev S4096 : Shape := ⟨1, ![4096]⟩
abbrev S4096x1 : Shape := ⟨2, ![4096, 1]⟩
abbrev S1x47 : Shape := ⟨2, ![1, 47]⟩
abbrev S4096x47 : Shape := ⟨2, ![4096, 47]⟩
abbrev S1024x256 : Shape := ⟨2, ![1024, 256]⟩
abbrev S1024x47 : Shape := ⟨2, ![1024, 47]⟩

abbrev nBuf : Space → Nat
  | .hbm => 115
  | .vmem => 27
  | .smem => 0
  | _ => 0

abbrev bufTy : (tb : Table) → Fin (tcTables nBuf tb) → BufTy
  | .hbm, ⟨0, _⟩ => ⟨S409600x100, .f32⟩
  | .hbm, ⟨1, _⟩ => ⟨S256x100, .f32⟩
  | .hbm, ⟨2, _⟩ => ⟨S256, .f32⟩
  | .hbm, ⟨3, _⟩ => ⟨S256x100, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S47x256, .f32⟩
  | .hbm, ⟨8, _⟩ => ⟨S47, .f32⟩
  | .hbm, ⟨9, _⟩ => ⟨S47x256, .f32⟩
  | .hbm, ⟨10, _⟩ => ⟨S1536000, .i32⟩
  | .hbm, ⟨11, _⟩ => ⟨S1536000, .i32⟩
  | .hbm, ⟨12, _⟩ => ⟨S256000, .i32⟩
  | .hbm, ⟨13, _⟩ => ⟨S256000, .i32⟩
  | .hbm, ⟨14, _⟩ => ⟨S40960, .i32⟩
  | .hbm, ⟨15, _⟩ => ⟨S40960, .i32⟩
  | .hbm, ⟨16, _⟩ => ⟨S_, .i32⟩
  | .hbm, ⟨17, _⟩ => ⟨S1536000, .i32⟩
  | .hbm, ⟨18, _⟩ => ⟨S1536000, .i1⟩
  | .hbm, ⟨19, _⟩ => ⟨S_, .i32⟩
  | .hbm, ⟨20, _⟩ => ⟨S1536000, .i32⟩
  | .hbm, ⟨21, _⟩ => ⟨S1536000, .i32⟩
  | .hbm, ⟨22, _⟩ => ⟨S1536000, .i32⟩
  | .hbm, ⟨23, _⟩ => ⟨S1536000x1, .i32⟩
  | .hbm, ⟨24, _⟩ => ⟨S1536000x100, .f32⟩
  | .hbm, ⟨25, _⟩ => ⟨S_, .f32⟩
  | .hbm, ⟨26, _⟩ => ⟨S102400x100, .f32⟩
  | .hbm, ⟨27, _⟩ => ⟨S1536000x1, .i32⟩
  | .hbm, ⟨28, _⟩ => ⟨S102400x100, .f32⟩
  | .hbm, ⟨29, _⟩ => ⟨S_, .f32⟩
  | .hbm, ⟨30, _⟩ => ⟨S1536000, .f32⟩
  | .hbm, ⟨31, _⟩ => ⟨S_, .f32⟩
  | .hbm, ⟨32, _⟩ => ⟨S102400, .f32⟩
  | .hbm, ⟨33, _⟩ => ⟨S1536000x1, .i32⟩
  | .hbm, ⟨34, _⟩ => ⟨S102400, .f32⟩
  | .hbm, ⟨35, _⟩ => ⟨S_, .f32⟩
  | .hbm, ⟨36, _⟩ => ⟨S102400, .f32⟩
  | .hbm, ⟨37, _⟩ => ⟨S102400, .f32⟩
  | .hbm, ⟨38, _⟩ => ⟨S102400x1, .f32⟩
  | .hbm, ⟨39, _⟩ => ⟨S102400x100, .f32⟩
  | .hbm, ⟨40, _⟩ => ⟨S102400x100, .f32⟩
  | .hbm, ⟨41, _⟩ => ⟨S102400x100, .f32⟩
  | .hbm, ⟨42, _⟩ => ⟨S1x256, .f32⟩
  | .hbm, ⟨43, _⟩ => ⟨S102400x256, .f32⟩
  | .hbm, ⟨44, _⟩ => ⟨S_, .i32⟩
  | .hbm, ⟨45, _⟩ => ⟨S256000, .i32⟩
  | .hbm, ⟨46, _⟩ => ⟨S256000, .i1⟩
  | .hbm, ⟨47, _⟩ => ⟨S_, .i32⟩
  | .hbm, ⟨48, _⟩ => ⟨S256000, .i32⟩
  | .hbm, ⟨49, _⟩ => ⟨S256000, .i32⟩
  | .hbm, ⟨50, _⟩ => ⟨S256000, .i32⟩
  | .hbm, ⟨51, _⟩ => ⟨S256000x1, .i32⟩
  | .hbm, ⟨52, _⟩ => ⟨S256000x256, .f32⟩
  | .hbm, ⟨53, _⟩ => ⟨S_, .f32⟩
  | .hbm, ⟨54, _⟩ => ⟨S25600x256, .f32⟩
  | .hbm, ⟨55, _⟩ => ⟨S256000x1, .i32⟩
  | .hbm, ⟨56, _⟩ => ⟨S25600x256, .f32⟩
  | .hbm, ⟨57, _⟩ => ⟨S_, .f32⟩
  | .hbm, ⟨58, _⟩ => ⟨S256000, .f32⟩
  | .hbm, ⟨59, _⟩ => ⟨S_, .f32⟩
  | .hbm, ⟨60, _⟩ => ⟨S25600, .f32⟩
  | .hbm, ⟨61, _⟩ => ⟨S256000x1, .i32⟩
  | .hbm, ⟨62, _⟩ => ⟨S25600, .f32⟩
  | .hbm, ⟨63, _⟩ => ⟨S_, .f32⟩
  | .hbm, ⟨64, _⟩ => ⟨S25600, .f32⟩
  | .hbm, ⟨65, _⟩ => ⟨S25600, .f32⟩
  | .hbm, ⟨66, _⟩ => ⟨S25600x1, .f32⟩
  | .hbm, ⟨67, _⟩ => ⟨S25600x256, .f32⟩
  | .hbm, ⟨68, _⟩ => ⟨S25600x256, .f32⟩
  | .hbm, ⟨69, _⟩ => ⟨S25600x256, .f32⟩
  | .hbm, ⟨70, _⟩ => ⟨S1x256, .f32⟩
  | .hbm, ⟨71, _⟩ => ⟨S25600x256, .f32⟩
  | .hbm, ⟨72, _⟩ => ⟨S_, .i32⟩
  | .hbm, ⟨73, _⟩ => ⟨S40960, .i32⟩
  | .hbm, ⟨74, _⟩ => ⟨S40960, .i1⟩
  | .hbm, ⟨75, _⟩ => ⟨S_, .i32⟩
  | .hbm, ⟨76, _⟩ => ⟨S40960, .i32⟩
  | .hbm, ⟨77, _⟩ => ⟨S40960, .i32⟩
  | .hbm, ⟨78, _⟩ => ⟨S40960, .i32⟩
  | .hbm, ⟨79, _⟩ => ⟨S40960x1, .i32⟩
  | .hbm, ⟨80, _⟩ => ⟨S40960x256, .f32⟩
  | .hbm, ⟨81, _⟩ => ⟨S_, .f32⟩
  | .hbm, ⟨82, _⟩ => ⟨S4096x256, .f32⟩
  | .hbm, ⟨83, _⟩ => ⟨S40960x1, .i32⟩
  | .hbm, ⟨84, _⟩ => ⟨S4096x256, .f32⟩
  | .hbm, ⟨85, _⟩ => ⟨S_, .f32⟩
  | .hbm, ⟨86, _⟩ => ⟨S40960, .f32⟩
  | .hbm, ⟨87, _⟩ => ⟨S_, .f32⟩
  | .hbm, ⟨88, _⟩ => ⟨S4096, .f32⟩
  | .hbm, ⟨89, _⟩ => ⟨S40960x1, .i32⟩
  | .hbm, ⟨90, _⟩ => ⟨S4096, .f32⟩
  | .hbm, ⟨91, _⟩ => ⟨S_, .f32⟩
  | .hbm, ⟨92, _⟩ => ⟨S4096, .f32⟩
  | .hbm, ⟨93, _⟩ => ⟨S4096, .f32⟩
  | .hbm, ⟨94, _⟩ => ⟨S4096x1, .f32⟩
  | .hbm, ⟨95, _⟩ => ⟨S4096x256, .f32⟩
  | .hbm, ⟨96, _⟩ => ⟨S4096x256, .f32⟩
  | .hbm, ⟨97, _⟩ => ⟨S4096x256, .f32⟩
  | .hbm, ⟨98, _⟩ => ⟨S1x47, .f32⟩
  | .hbm, ⟨99, _⟩ => ⟨S4096x47, .f32⟩
  | .hbm, ⟨100, _⟩ => ⟨S_, .f32⟩
  | .hbm, ⟨101, _⟩ => ⟨S4096, .f32⟩
  | .hbm, ⟨102, _⟩ => ⟨S_, .f32⟩
  | .hbm, ⟨103, _⟩ => ⟨S4096, .f32⟩
  | .hbm, ⟨104, _⟩ => ⟨S4096, .f32⟩
  | .hbm, ⟨105, _⟩ => ⟨S4096x1, .f32⟩
  | .hbm, ⟨106, _⟩ => ⟨S4096x47, .f32⟩
  | .hbm, ⟨107, _⟩ => ⟨S4096x47, .f32⟩
  | .hbm, ⟨108, _⟩ => ⟨S4096x47, .f32⟩
  | .hbm, ⟨109, _⟩ => ⟨S_, .f32⟩
  | .hbm, ⟨110, _⟩ => ⟨S4096, .f32⟩
  | .hbm, ⟨111, _⟩ => ⟨S4096x1, .f32⟩
  | .hbm, ⟨112, _⟩ => ⟨S4096x1, .f32⟩
  | .hbm, ⟨113, _⟩ => ⟨S4096x47, .f32⟩
  | .hbm, ⟨114, _⟩ => ⟨S4096x47, .f32⟩
  | .local _ .vmem, ⟨0, _⟩ => ⟨S2048x100, .f32⟩
  | .local _ .vmem, ⟨1, _⟩ => ⟨S2048x100, .f32⟩
  | .local _ .vmem, ⟨2, _⟩ => ⟨S2048x100, .f32⟩
  | .local _ .vmem, ⟨3, _⟩ => ⟨S2048x100, .f32⟩
  | .local _ .vmem, ⟨4, _⟩ => ⟨S256x100, .f32⟩
  | .local _ .vmem, ⟨5, _⟩ => ⟨S1x256, .f32⟩
  | .local _ .vmem, ⟨6, _⟩ => ⟨S256x100, .f32⟩
  | .local _ .vmem, ⟨7, _⟩ => ⟨S2048x256, .f32⟩
  | .local _ .vmem, ⟨8, _⟩ => ⟨S2048x256, .f32⟩
  | .local _ .vmem, ⟨9, _⟩ => ⟨S2560x256, .f32⟩
  | .local _ .vmem, ⟨10, _⟩ => ⟨S2560x256, .f32⟩
  | .local _ .vmem, ⟨11, _⟩ => ⟨S2560x256, .f32⟩
  | .local _ .vmem, ⟨12, _⟩ => ⟨S2560x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S2560x256, .f32⟩
  | .local _ .vmem, ⟨17, _⟩ => ⟨S2560x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S47x256, .f32⟩
  | .local _ .vmem, ⟨23, _⟩ => ⟨S1x47, .f32⟩
  | .local _ .vmem, ⟨24, _⟩ => ⟨S47x256, .f32⟩
  | .local _ .vmem, ⟨25, _⟩ => ⟨S1024x47, .f32⟩
  | .local _ .vmem, ⟨26, _⟩ => ⟨S1024x47, .f32⟩
  | _, _ => ⟨S409600x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_cst_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_9 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_10 : Ref sig .tc := ⟨.hbm, 72, rfl⟩
abbrev main_v44 : Ref sig .tc := ⟨.hbm, 73, rfl⟩
abbrev main_v45 : Ref sig .tc := ⟨.hbm, 74, rfl⟩
abbrev main_c_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_12 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_13 : Ref sig .tc := ⟨.hbm, 85, rfl⟩
abbrev main_v54 : Ref sig .tc := ⟨.hbm, 86, rfl⟩
abbrev main_cst_14 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_15 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_call0_cst : Ref sig .tc := ⟨.hbm, 100, rfl⟩
abbrev main_call0_v0 : Ref sig .tc := ⟨.hbm, 101, rfl⟩
abbrev main_call0_cst_0 : Ref sig .tc := ⟨.hbm, 102, rfl⟩
abbrev main_call0_v1 : Ref sig .tc := ⟨.hbm, 103, rfl⟩
abbrev main_call0_v2 : Ref sig .tc := ⟨.hbm, 104, rfl⟩
abbrev main_call0_v3 : Ref sig .tc := ⟨.hbm, 105, rfl⟩
abbrev main_call0_v4 : Ref sig .tc := ⟨.hbm, 106, rfl⟩
abbrev main_call0_v5 : Ref sig .tc := ⟨.hbm, 107, rfl⟩
abbrev main_call0_v6 : Ref sig .tc := ⟨.hbm, 108, rfl⟩
abbrev main_call0_cst_1 : Ref sig .tc := ⟨.hbm, 109, rfl⟩
abbrev main_call0_v7 : Ref sig .tc := ⟨.hbm, 110, rfl⟩
abbrev main_call0_v8 : Ref sig .tc := ⟨.hbm, 111, rfl⟩
abbrev main_call0_v9 : Ref sig .tc := ⟨.hbm, 112, rfl⟩
abbrev main_call0_v10 : Ref sig .tc := ⟨.hbm, 113, rfl⟩
abbrev main_v66 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2560x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2560x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2560x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S47x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S47x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x47 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1536000 : S_.BroadcastsInDim S1536000 (![] : Fin 0 → Fin S1536000.rank)
  bcast_S1536000_S1536000x1_0 : S1536000.BroadcastsInDim S1536000x1 (![0] : Fin 1 → Fin S1536000x1.rank)
  bcast_S_S102400x100 : S_.BroadcastsInDim S102400x100 (![] : Fin 0 → Fin S102400x100.rank)
  bcast_S_S102400 : S_.BroadcastsInDim S102400 (![] : Fin 0 → Fin S102400.rank)
  bcast_S102400_S102400x1_0 : S102400.BroadcastsInDim S102400x1 (![0] : Fin 1 → Fin S102400x1.rank)
  bcast_S102400x1_S102400x100_0_1 : S102400x1.BroadcastsInDim S102400x100 (![0, 1] : Fin 2 → Fin S102400x100.rank)
  slices_S409600x100_S102400x100_0_0 : S409600x100.Slices ![0, 0] S102400x100
  shapeCasts_S256_S1x256 : S256.ShapeCasts S1x256
  inb_S2048x100_S2048x100_0_0 : ∀ a, (![0, 0] : Fin 2 → Nat) a + S2048x100.size a ≤ S2048x100.size a
  h_S2048x100 : 0 < S2048x100.numel
  shapeCasts_S2048x100_S2048x100 : S2048x100.ShapeCasts S2048x100
  bitsLt_bf16_f32 : FTy.bits .bf16 < FTy.bits .f32
  inb_S256x100_S256x100_0_0 : ∀ a, (![0, 0] : Fin 2 → Nat) a + S256x100.size a ≤ S256x100.size a
  h_S256x100 : 0 < S256x100.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  bcast_S_S256000 : S_.BroadcastsInDim S256000 (![] : Fin 0 → Fin S256000.rank)
  bcast_S256000_S256000x1_0 : S256000.BroadcastsInDim S256000x1 (![0] : Fin 1 → Fin S256000x1.rank)
  bcast_S_S25600x256 : S_.BroadcastsInDim S25600x256 (![] : Fin 0 → Fin S25600x256.rank)
  bcast_S_S25600 : S_.BroadcastsInDim S25600 (![] : Fin 0 → Fin S25600.rank)
  bcast_S25600_S25600x1_0 : S25600.BroadcastsInDim S25600x1 (![0] : Fin 1 → Fin S25600x1.rank)
  bcast_S25600x1_S25600x256_0_1 : S25600x1.BroadcastsInDim S25600x256 (![0, 1] : Fin 2 → Fin S25600x256.rank)
  slices_S102400x256_S25600x256_0_0 : S102400x256.Slices ![0, 0] S25600x256
  inb_S2560x256_S2560x256_0_0 : ∀ a, (![0, 0] : Fin 2 → Nat) a + S2560x256.size a ≤ S2560x256.size a
  h_S2560x256 : 0 < S2560x256.numel
  shapeCasts_S2560x256_S2560x256 : S2560x256.ShapeCasts S2560x256
  inb_S256x256_S256x256_0_0 : ∀ a, (![0, 0] : Fin 2 → Nat) a + S256x256.size a ≤ S256x256.size a
  h_S256x256 : 0 < S256x256.numel
  broadcasts_S1x256_S2560x256 : S1x256.Broadcasts S2560x256
  bcast_S_S40960 : S_.BroadcastsInDim S40960 (![] : Fin 0 → Fin S40960.rank)
  bcast_S40960_S40960x1_0 : S40960.BroadcastsInDim S40960x1 (![0] : Fin 1 → Fin S40960x1.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  slices_S25600x256_S4096x256_0_0 : S25600x256.Slices ![0, 0] S4096x256
  shapeCasts_S47_S1x47 : S47.ShapeCasts S1x47
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S47x256_S47x256_0_0 : ∀ a, (![0, 0] : Fin 2 → Nat) a + S47x256.size a ≤ S47x256.size a
  h_S47x256 : 0 < S47x256.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S1024x47 : S1x47.Broadcasts S1024x47
  inb_S1024x47_S1024x47_0_0 : ∀ a, (![0, 0] : Fin 2 → Nat) a + S1024x47.size a ≤ S1024x47.size a
  h_S1024x47 : 0 < S1024x47.numel
  reducesTo_S4096x47_S4096_d1 : S4096x47.ReducesTo [1] S4096
  h_S_ : 0 < S_.numel
  bcast_S4096x1_S4096x47_0_1 : S4096x1.BroadcastsInDim S4096x47 (![0, 1] : Fin 2 → Fin S4096x47.rank)
  gather_S409600x100_S1536000x1_S1536000x100_1_0_n_n_0_1_1100_wf : GatherDims.WF S409600x100 S1536000x1 S1536000x100 [1] [0] [] [0] [] 1 ![1, 100]
  scatter_S102400x100_S1536000x1_S1536000x100_1_0_0_1_wf : ScatterDims.WF S102400x100 S1536000x1 S1536000x100 [1] [0] [0] 1
  scatter_S102400_S1536000x1_S1536000_n_0_0_1_wf : ScatterDims.WF S102400 S1536000x1 S1536000 [] [0] [0] 1
  dot_S2048x100_S256x100_S2048x256_1_1_0_0_n_n_wf : DotDims.WF S2048x100 S256x100 S2048x256 [1] [1] [0] [0] [] []
  gather_S102400x256_S256000x1_S256000x256_1_0_n_n_0_1_1256_wf : GatherDims.WF S102400x256 S256000x1 S256000x256 [1] [0] [] [0] [] 1 ![1, 256]
  scatter_S25600x256_S256000x1_S256000x256_1_0_0_1_wf : ScatterDims.WF S25600x256 S256000x1 S256000x256 [1] [0] [0] 1
  scatter_S25600_S256000x1_S256000_n_0_0_1_wf : ScatterDims.WF S25600 S256000x1 S256000 [] [0] [0] 1
  dot_S2560x256_S256x256_S2560x256_1_1_0_0_n_n_wf : DotDims.WF S2560x256 S256x256 S2560x256 [1] [1] [0] [0] [] []
  gather_S25600x256_S40960x1_S40960x256_1_0_n_n_0_1_1256_wf : GatherDims.WF S25600x256 S40960x1 S40960x256 [1] [0] [] [0] [] 1 ![1, 256]
  scatter_S4096x256_S40960x1_S40960x256_1_0_0_1_wf : ScatterDims.WF S4096x256 S40960x1 S40960x256 [1] [0] [0] 1
  scatter_S4096_S40960x1_S40960_n_0_0_1_wf : ScatterDims.WF S4096 S40960x1 S40960 [] [0] [0] 1
  dot_S1024x256_S47x256_S1024x47_1_1_0_0_n_n_wf : DotDims.WF S1024x256 S47x256 S1024x47 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x100.size a ≤ S102400x100.size a
  hwx0_0 : ∀ i : grid0.Coords, EltTy.bits .f32 = 32 ∨ (Rect.block (s := S102400x100) S2048x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x100.size a ≤ S102400x100.size a
  hwx0_1 : ∀ i : grid0.Coords, EltTy.bits .f32 = 32 ∨ (Rect.block (s := S102400x100) S2048x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x100.size a ≤ S256x100.size a
  hwx0_2 : ∀ i : grid0.Coords, EltTy.bits .f32 = 32 ∨ (Rect.block (s := S256x100) S256x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x100.size a ≤ S256x100.size a
  hwx0_4 : ∀ i : grid0.Coords, EltTy.bits .f32 = 32 ∨ (Rect.block (s := S256x100) S256x100.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S102400x256.size a
  hwx0_5 : ∀ i : grid0.Coords, EltTy.bits .f32 = 32 ∨ (Rect.block (s := S102400x256) S2048x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2560x256.size a ≤ S25600x256.size a
  hwx1_0 : ∀ i : grid1.Coords, EltTy.bits .f32 = 32 ∨ (Rect.block (s := S25600x256) S2560x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2560x256.size a ≤ S25600x256.size a
  hwx1_1 : ∀ i : grid1.Coords, EltTy.bits .f32 = 32 ∨ (Rect.block (s := S25600x256) S2560x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2560x256.size a ≤ S25600x256.size a
  hwx1_5 : ∀ i : grid1.Coords, EltTy.bits .f32 = 32 ∨ (Rect.block (s := S25600x256) S2560x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S4096x256.size a
  hwx2_0 : ∀ i : grid2.Coords, EltTy.bits .f32 = 32 ∨ (Rect.block (s := S4096x256) S1024x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S4096x256.size a
  hwx2_1 : ∀ i : grid2.Coords, EltTy.bits .f32 = 32 ∨ (Rect.block (s := S4096x256) S1024x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S47x256.size a ≤ S47x256.size a
  hwx2_2 : ∀ i : grid2.Coords, EltTy.bits .f32 = 32 ∨ (Rect.block (s := S47x256) S47x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x47.size a ≤ S1x47.size a
  hwx2_3 : ∀ i : grid2.Coords, EltTy.bits .f32 = 32 ∨ (Rect.block (s := S1x47) S1x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S47x256.size a ≤ S47x256.size a
  hwx2_4 : ∀ i : grid2.Coords, EltTy.bits .f32 = 32 ∨ (Rect.block (s := S47x256) S47x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x47.size a ≤ S4096x47.size a
  hwx2_5 : ∀ i : grid2.Coords, EltTy.bits .f32 = 32 ∨ (Rect.block (s := S4096x47) S1024x47.size (cc2_transform_5 i) (hinb2_5 i)).WholeWords (EltTy.packing .f32)

variable [Facts₀]

def gather_S409600x100_S1536000x1_S1536000x100_1_0_n_n_0_1_1100 : GatherDims S409600x100 S1536000x1 S1536000x100 where
  offsetDims := [1]
  collapsedSliceDims := [0]
  operandBatchingDims := []
  startIndicesBatchingDims := []
  startIndexMap := [0]
  indexVectorDim := 1
  sliceSizes := ![1, 100]
  wf := gather_S409600x100_S1536000x1_S1536000x100_1_0_n_n_0_1_1100_wf
def scatter_S102400x100_S1536000x1_S1536000x100_1_0_0_1 : ScatterDims S102400x100 S1536000x1 S1536000x100 where
  updateWindowDims := [1]
  insertedWindowDims := [0]
  scatterDimsToOperandDims := [0]
  indexVectorDim := 1
  wf := scatter_S102400x100_S1536000x1_S1536000x100_1_0_0_1_wf
def scatter_S102400_S1536000x1_S1536000_n_0_0_1 : ScatterDims S102400 S1536000x1 S1536000 where
  updateWindowDims := []
  insertedWindowDims := [0]
  scatterDimsToOperandDims := [0]
  indexVectorDim := 1
  wf := scatter_S102400_S1536000x1_S1536000_n_0_0_1_wf
def dot_S2048x100_S256x100_S2048x256_1_1_0_0_n_n : DotDims S2048x100 S256x100 S2048x256 where
  lhsContracting := [1]
  rhsContracting := [1]
  lhsNonContracting := [0]
  rhsNonContracting := [0]
  lhsBatch := []
  rhsBatch := []
  wf := dot_S2048x100_S256x100_S2048x256_1_1_0_0_n_n_wf
def gather_S102400x256_S256000x1_S256000x256_1_0_n_n_0_1_1256 : GatherDims S102400x256 S256000x1 S256000x256 where
  offsetDims := [1]
  collapsedSliceDims := [0]
  operandBatchingDims := []
  startIndicesBatchingDims := []
  startIndexMap := [0]
  indexVectorDim := 1
  sliceSizes := ![1, 256]
  wf := gather_S102400x256_S256000x1_S256000x256_1_0_n_n_0_1_1256_wf
def scatter_S25600x256_S256000x1_S256000x256_1_0_0_1 : ScatterDims S25600x256 S256000x1 S256000x256 where
  updateWindowDims := [1]
  insertedWindowDims := [0]
  scatterDimsToOperandDims := [0]
  indexVectorDim := 1
  wf := scatter_S25600x256_S256000x1_S256000x256_1_0_0_1_wf
def scatter_S25600_S256000x1_S256000_n_0_0_1 : ScatterDims S25600 S256000x1 S256000 where
  updateWindowDims := []
  insertedWindowDims := [0]
  scatterDimsToOperandDims := [0]
  indexVectorDim := 1
  wf := scatter_S25600_S256000x1_S256000_n_0_0_1_wf
def dot_S2560x256_S256x256_S2560x256_1_1_0_0_n_n : DotDims S2560x256 S256x256 S2560x256 where
  lhsContracting := [1]
  rhsContracting := [1]
  lhsNonContracting := [0]
  rhsNonContracting := [0]
  lhsBatch := []
  rhsBatch := []
  wf := dot_S2560x256_S256x256_S2560x256_1_1_0_0_n_n_wf
def gather_S25600x256_S40960x1_S40960x256_1_0_n_n_0_1_1256 : GatherDims S25600x256 S40960x1 S40960x256 where
  offsetDims := [1]
  collapsedSliceDims := [0]
  operandBatchingDims := []
  startIndicesBatchingDims := []
  startIndexMap := [0]
  indexVectorDim := 1
  sliceSizes := ![1, 256]
  wf := gather_S25600x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S1024x256_S47x256_S1024x47_1_1_0_0_n_n : DotDims S1024x256 S47x256 S1024x47 where
  lhsContracting := [1]
  rhsContracting := [1]
  lhsNonContracting := [0]
  rhsNonContracting := [0]
  lhsBatch := []
  rhsBatch := []
  wf := dot_S1024x256_S47x256_S1024x47_1_1_0_0_n_n_wf

abbrev win0_0 : Pipeline.Window sig grid0 :=
  Pipeline.Window.ofSpec (Memref.whole main_v18) S2048x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2048x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S2560x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S2560x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S2560x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v62) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S47x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S47x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1024x47.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S409600x100 : Shape := ⟨2, ![409600, 100]⟩
abbrev S256x100 : Shape := ⟨2, ![256, 100]⟩
abbrev S256 : Shape := ⟨1, ![256]⟩
abbrev S256x256 : Shape := ⟨2, ![256, 256]⟩
abbrev S47x256 : Shape := ⟨2, ![47, 256]⟩
abbrev S47 : Shape := ⟨1, ![47]⟩
abbrev S1536000 : Shape := ⟨1, ![1536000]⟩
abbrev S256000 : Shape := ⟨1, ![256000]⟩
abbrev S40960 : Shape := ⟨1, ![40960]⟩
abbrev S102400x100 : Shape := ⟨2, ![102400, 100]⟩
abbrev S_ : Shape := ⟨0, ![]⟩
abbrev S1536000x1 : Shape := ⟨2, ![1536000, 1]⟩
abbrev S1536000x100 : Shape := ⟨2, ![1536000, 100]⟩
abbrev S102400 : Shape := ⟨1, ![102400]⟩
abbrev S102400x1 : Shape := ⟨2, ![102400, 1]⟩
abbrev S100x256 : Shape := ⟨2, ![100, 256]⟩
abbrev S102400x256 : Shape := ⟨2, ![102400, 256]⟩
abbrev S1x256 : Shape := ⟨2, ![1, 256]⟩
abbrev S25600x256 : Shape := ⟨2, ![25600, 256]⟩
abbrev S256000x1 : Shape := ⟨2, ![256000, 1]⟩
abbrev S256000x256 : Shape := ⟨2, ![256000, 256]⟩
abbrev S25600 : Shape := ⟨1, ![25600]⟩
abbrev S25600x1 : Shape := ⟨2, ![25600, 1]⟩
abbrev S4096x256 : Shape := ⟨2, ![4096, 256]⟩
abbrev S40960x1 : Shape := ⟨2, ![40960, 1]⟩
abbrev S40960x256 : Shape := ⟨2, ![40960, 256]⟩
abbrev S4096 : Shape := ⟨1, ![4096]⟩
abbrev S4096x1 : Shape := ⟨2, ![4096, 1]⟩
abbrev S256x47 : Shape := ⟨2, ![256, 47]⟩
abbrev S4096x47 : Shape := ⟨2, ![4096, 47]⟩
abbrev S1x47 : Shape := ⟨2, ![1, 47]⟩

abbrev nBuf : Space → Nat
  | .hbm => 139
  | .vmem => 0
  | .smem => 0
  | _ => 0

abbrev hbmTy0_0 (i : Nat) : BufTy := match i % 128 with
  | 0 => ⟨S409600x100, .f32⟩
  | 1 => ⟨S256x100, .f32⟩
  | 2 => ⟨S256, .f32⟩
  | 3 => ⟨S256x100, .f32⟩
  | 4 => ⟨S256x256, .f32⟩
  | 5 => ⟨S256, .f32⟩
  | 6 => ⟨S256x256, .f32⟩
  | 7 => ⟨S47x256, .f32⟩
  | 8 => ⟨S47, .f32⟩
  | 9 => ⟨S47x256, .f32⟩
  | 10 => ⟨S1536000, .i32⟩
  | 11 => ⟨S1536000, .i32⟩
  | 12 => ⟨S256000, .i32⟩
  | 13 => ⟨S256000, .i32⟩
  | 14 => ⟨S40960, .i32⟩
  | 15 => ⟨S40960, .i32⟩
  | 16 => ⟨S102400x100, .f32⟩
  | 17 => ⟨S_, .i32⟩
  | 18 => ⟨S1536000, .i32⟩
  | 19 => ⟨S1536000, .i1⟩
  | 20 => ⟨S_, .i32⟩
  | 21 => ⟨S1536000, .i32⟩
  | 22 => ⟨S1536000, .i32⟩
  | 23 => ⟨S1536000, .i32⟩
  | 24 => ⟨S1536000x1, .i32⟩
  | 25 => ⟨S1536000x100, .f32⟩
  | 26 => ⟨S_, .f32⟩
  | 27 => ⟨S102400x100, .f32⟩
  | 28 => ⟨S1536000x1, .i32⟩
  | 29 => ⟨S102400x100, .f32⟩
  | 30 => ⟨S_, .f32⟩
  | 31 => ⟨S1536000, .f32⟩
  | 32 => ⟨S_, .f32⟩
  | 33 => ⟨S102400, .f32⟩
  | 34 => ⟨S1536000x1, .i32⟩
  | 35 => ⟨S102400, .f32⟩
  | 36 => ⟨S_, .f32⟩
  | 37 => ⟨S102400, .f32⟩
  | 38 => ⟨S102400, .f32⟩
  | 39 => ⟨S102400x1, .f32⟩
  | 40 => ⟨S102400x100, .f32⟩
  | 41 => ⟨S102400x100, .f32⟩
  | 42 => ⟨S100x256, .f32⟩
  | 43 => ⟨S102400x256, .f32⟩
  | 44 => ⟨S1x256, .f32⟩
  | 45 => ⟨S102400x256, .f32⟩
  | 46 => ⟨S102400x256, .f32⟩
  | 47 => ⟨S100x256, .f32⟩
  | 48 => ⟨S102400x256, .f32⟩
  | 49 => ⟨S102400x256, .f32⟩
  | 50 => ⟨S_, .f32⟩
  | 51 => ⟨S102400x256, .f32⟩
  | 52 => ⟨S102400x256, .f32⟩
  | 53 => ⟨S25600x256, .f32⟩
  | 54 => ⟨S_, .i32⟩
  | 55 => ⟨S256000, .i32⟩
  | 56 => ⟨S256000, .i1⟩
  | 57 => ⟨S_, .i32⟩
  | 58 => ⟨S256000, .i32⟩
  | 59 => ⟨S256000, .i32⟩
  | 60 => ⟨S256000, .i32⟩
  | 61 => ⟨S256000x1, .i32⟩
  | 62 => ⟨S256000x256, .f32⟩
  | 63 => ⟨S_, .f32⟩
  | 64 => ⟨S25600x256, .f32⟩
  | 65 => ⟨S256000x1, .i32⟩
  | 66 => ⟨S25600x256, .f32⟩
  | 67 => ⟨S_, .f32⟩
  | 68 => ⟨S256000, .f32⟩
  | 69 => ⟨S_, .f32⟩
  | 70 => ⟨S25600, .f32⟩
  | 71 => ⟨S256000x1, .i32⟩
  | 72 => ⟨S25600, .f32⟩
  | 73 => ⟨S_, .f32⟩
  | 74 => ⟨S25600, .f32⟩
  | 75 => ⟨S25600, .f32⟩
  | 76 => ⟨S25600x1, .f32⟩
  | 77 => ⟨S25600x256, .f32⟩
  | 78 => ⟨S25600x256, .f32⟩
  | 79 => ⟨S256x256, .f32⟩
  | 80 => ⟨S25600x256, .f32⟩
  | 81 => ⟨S1x256, .f32⟩
  | 82 => ⟨S25600x256, .f32⟩
  | 83 => ⟨S25600x256, .f32⟩
  | 84 => ⟨S256x256, .f32⟩
  | 85 => ⟨S25600x256, .f32⟩
  | 86 => ⟨S25600x256, .f32⟩
  | 87 => ⟨S_, .f32⟩
  | 88 => ⟨S25600x256, .f32⟩
  | 89 => ⟨S25600x256, .f32⟩
  | 90 => ⟨S4096x256, .f32⟩
  | 91 => ⟨S_, .i32⟩
  | 92 => ⟨S40960, .i32⟩
  | 93 => ⟨S40960, .i1⟩
  | 94 => ⟨S_, .i32⟩
  | 95 => ⟨S40960, .i32⟩
  | 96 => ⟨S40960, .i32⟩
  | 97 => ⟨S40960, .i32⟩
  | 98 => ⟨S40960x1, .i32⟩
  | 99 => ⟨S40960x256, .f32⟩
  | 100 => ⟨S_, .f32⟩
  | 101 => ⟨S4096x256, .f32⟩
  | 102 => ⟨S40960x1, .i32⟩
  | 103 => ⟨S4096x256, .f32⟩
  | 104 => ⟨S_, .f32⟩
  | 105 => ⟨S40960, .f32⟩
  | 106 => ⟨S_, .f32⟩
  | 107 => ⟨S4096, .f32⟩
  | 108 => ⟨S40960x1, .i32⟩
  | 109 => ⟨S4096, .f32⟩
  | 110 => ⟨S_, .f32⟩
  | 111 => ⟨S4096, .f32⟩
  | 112 => ⟨S4096, .f32⟩
  | 113 => ⟨S4096x1, .f32⟩
  | 114 => ⟨S4096x256, .f32⟩
  | 115 => ⟨S4096x256, .f32⟩
  | 116 => ⟨S256x47, .f32⟩
  | 117 => ⟨S4096x47, .f32⟩
  | 118 => ⟨S1x47, .f32⟩
  | 119 => ⟨S4096x47, .f32⟩
  | 120 => ⟨S4096x47, .f32⟩
  | 121 => ⟨S256x47, .f32⟩
  | 122 => ⟨S4096x47, .f32⟩
  | 123 => ⟨S4096x47, .f32⟩
  | 124 => ⟨S_, .f32⟩
  | 125 => ⟨S4096, .f32⟩
  | 126 => ⟨S_, .f32⟩
  | 127 => ⟨S4096, .f32⟩
  | _ => ⟨S409600x100, .f32⟩

abbrev hbmTy0_1 (i : Nat) : BufTy := match i % 128 with
  | 0 => ⟨S4096, .f32⟩
  | 1 => ⟨S4096x1, .f32⟩
  | 2 => ⟨S4096x47, .f32⟩
  | 3 => ⟨S4096x47, .f32⟩
  | 4 => ⟨S4096x47, .f32⟩
  | 5 => ⟨S_, .f32⟩
  | 6 => ⟨S4096, .f32⟩
  | 7 => ⟨S4096x1, .f32⟩
  | 8 => ⟨S4096x1, .f32⟩
  | 9 => ⟨S4096x47, .f32⟩
  | 10 => ⟨S4096x47, .f32⟩
  | _ => ⟨S409600x100, .f32⟩

abbrev hbmTy (i : Nat) : BufTy := match i / 128 with
  | 0 => hbmTy0_0 i
  | 1 => hbmTy0_1 i
  | _ => ⟨S409600x100, .f32⟩

abbrev bufTy : (tb : Table) → Fin (tcTables nBuf tb) → BufTy
  | .hbm, ⟨i, _⟩ => hbmTy i
  | _, _ => ⟨S409600x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call0_cst : Ref sig .tc := ⟨.hbm, 50, rfl⟩
abbrev main_call0_v0 : Ref sig .tc := ⟨.hbm, 51, rfl⟩
abbrev main_v28 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_c_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call1_cst : Ref sig .tc := ⟨.hbm, 87, rfl⟩
abbrev main_call1_v0 : Ref sig .tc := ⟨.hbm, 88, rfl⟩
abbrev main_v57 : Ref sig .tc := ⟨.hbm, 89, rfl⟩
abbrev main_v58 : Ref sig .tc := ⟨.hbm, 90, rfl⟩
abbrev main_c_10 : Ref sig .tc := ⟨.hbm, 91, rfl⟩
abbrev main_v59 : Ref sig .tc := ⟨.hbm, 92, rfl⟩
abbrev main_v60 : Ref sig .tc := ⟨.hbm, 93, rfl⟩
abbrev main_c_11 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_13 : Ref sig .tc := ⟨.hbm, 104, rfl⟩
abbrev main_v69 : Ref sig .tc := ⟨.hbm, 105, rfl⟩
abbrev main_cst_14 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_15 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_call2_cst : Ref sig .tc := ⟨.hbm, 124, rfl⟩
abbrev main_call2_v0 : Ref sig .tc := ⟨.hbm, 125, rfl⟩
abbrev main_call2_cst_0 : Ref sig .tc := ⟨.hbm, 126, rfl⟩
abbrev main_call2_v1 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_call2_v5 : Ref sig .tc := ⟨.hbm, 131, rfl⟩
abbrev main_call2_v6 : Ref sig .tc := ⟨.hbm, 132, rfl⟩
abbrev main_call2_cst_1 : Ref sig .tc := ⟨.hbm, 133, rfl⟩
abbrev main_call2_v7 : Ref sig .tc := ⟨.hbm, 134, rfl⟩
abbrev main_call2_v8 : Ref sig .tc := ⟨.hbm, 135, rfl⟩
abbrev main_call2_v9 : Ref sig .tc := ⟨.hbm, 136, rfl⟩
abbrev main_call2_v10 : Ref sig .tc := ⟨.hbm, 137, rfl⟩
abbrev main_v86 : Ref sig .tc := ⟨.hbm, 138, rfl⟩

abbrev nD : Nat := 1
abbrev τ : Topo := Topo.v7x

variable {F : FTy → Type} [FloatOps F]

class Facts₀ : Prop where
  slices_S409600x100_S102400x100_0_0 : S409600x100.Slices ![0, 0] S102400x100
  bcast_S_S1536000 : S_.BroadcastsInDim S1536000 (![] : Fin 0 → Fin S1536000.rank)
  bcast_S1536000_S1536000x1_0 : S1536000.BroadcastsInDim S1536000x1 (![0] : Fin 1 → Fin S1536000x1.rank)
  bcast_S_S102400x100 : S_.BroadcastsInDim S102400x100 (![] : Fin 0 → Fin S102400x100.rank)
  bcast_S_S102400 : S_.BroadcastsInDim S102400 (![] : Fin 0 → Fin S102400.rank)
  bcast_S102400_S102400x1_0 : S102400.BroadcastsInDim S102400x1 (![0] : Fin 1 → Fin S102400x1.rank)
  bcast_S102400x1_S102400x100_0_1 : S102400x1.BroadcastsInDim S102400x100 (![0, 1] : Fin 2 → Fin S102400x100.rank)
  transposes_S256x100_S100x256_1_0 : S256x100.Transposes [1, 0] S100x256
  bcast_S256_S1x256_1 : S256.BroadcastsInDim S1x256 (![1] : Fin 1 → Fin S1x256.rank)
  bcast_S1x256_S102400x256_0_1 : S1x256.BroadcastsInDim S102400x256 (![0, 1] : Fin 2 → Fin S102400x256.rank)
  bcast_S_S102400x256 : S_.BroadcastsInDim S102400x256 (![] : Fin 0 → Fin S102400x256.rank)
  slices_S102400x256_S25600x256_0_0 : S102400x256.Slices ![0, 0] S25600x256
  bcast_S_S256000 : S_.BroadcastsInDim S256000 (![] : Fin 0 → Fin S256000.rank)
  bcast_S256000_S256000x1_0 : S256000.BroadcastsInDim S256000x1 (![0] : Fin 1 → Fin S256000x1.rank)
  bcast_S_S25600x256 : S_.BroadcastsInDim S25600x256 (![] : Fin 0 → Fin S25600x256.rank)
  bcast_S_S25600 : S_.BroadcastsInDim S25600 (![] : Fin 0 → Fin S25600.rank)
  bcast_S25600_S25600x1_0 : S25600.BroadcastsInDim S25600x1 (![0] : Fin 1 → Fin S25600x1.rank)
  bcast_S25600x1_S25600x256_0_1 : S25600x1.BroadcastsInDim S25600x256 (![0, 1] : Fin 2 → Fin S25600x256.rank)
  transposes_S256x256_S256x256_1_0 : S256x256.Transposes [1, 0] S256x256
  bcast_S1x256_S25600x256_0_1 : S1x256.BroadcastsInDim S25600x256 (![0, 1] : Fin 2 → Fin S25600x256.rank)
  slices_S25600x256_S4096x256_0_0 : S25600x256.Slices ![0, 0] S4096x256
  bcast_S_S40960 : S_.BroadcastsInDim S40960 (![] : Fin 0 → Fin S40960.rank)
  bcast_S40960_S40960x1_0 : S40960.BroadcastsInDim S40960x1 (![0] : Fin 1 → Fin S40960x1.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  transposes_S47x256_S256x47_1_0 : S47x256.Transposes [1, 0] S256x47
  bcast_S47_S1x47_1 : S47.BroadcastsInDim S1x47 (![1] : Fin 1 → Fin S1x47.rank)
  bcast_S1x47_S4096x47_0_1 : S1x47.BroadcastsInDim S4096x47 (![0, 1] : Fin 2 → Fin S4096x47.rank)
  reducesTo_S4096x47_S4096_d1 : S4096x47.ReducesTo [1] S4096
  h_S_ : 0 < S_.numel
  bcast_S4096x1_S4096x47_0_1 : S4096x1.BroadcastsInDim S4096x47 (![0, 1] : Fin 2 → Fin S4096x47.rank)
  gather_S409600x100_S1536000x1_S1536000x100_1_0_n_n_0_1_1100_wf : GatherDims.WF S409600x100 S1536000x1 S1536000x100 [1] [0] [] [0] [] 1 ![1, 100]
  scatter_S102400x100_S1536000x1_S1536000x100_1_0_0_1_wf : ScatterDims.WF S102400x100 S1536000x1 S1536000x100 [1] [0] [0] 1
  scatter_S102400_S1536000x1_S1536000_n_0_0_1_wf : ScatterDims.WF S102400 S1536000x1 S1536000 [] [0] [0] 1
  dot_S102400x100_S100x256_S102400x256_1_0_0_1_n_n_wf : DotDims.WF S102400x100 S100x256 S102400x256 [1] [0] [0] [1] [] []
  gather_S102400x256_S256000x1_S256000x256_1_0_n_n_0_1_1256_wf : GatherDims.WF S102400x256 S256000x1 S256000x256 [1] [0] [] [0] [] 1 ![1, 256]
  scatter_S25600x256_S256000x1_S256000x256_1_0_0_1_wf : ScatterDims.WF S25600x256 S256000x1 S256000x256 [1] [0] [0] 1
  scatter_S25600_S256000x1_S256000_n_0_0_1_wf : ScatterDims.WF S25600 S256000x1 S256000 [] [0] [0] 1
  dot_S25600x256_S256x256_S25600x256_1_0_0_1_n_n_wf : DotDims.WF S25600x256 S256x256 S25600x256 [1] [0] [0] [1] [] []
  gather_S25600x256_S40960x1_S40960x256_1_0_n_n_0_1_1256_wf : GatherDims.WF S25600x256 S40960x1 S40960x256 [1] [0] [] [0] [] 1 ![1, 256]
  scatter_S4096x256_S40960x1_S40960x256_1_0_0_1_wf : ScatterDims.WF S4096x256 S40960x1 S40960x256 [1] [0] [0] 1
  scatter_S4096_S40960x1_S40960_n_0_0_1_wf : ScatterDims.WF S4096 S40960x1 S40960 [] [0] [0] 1
  dot_S4096x256_S256x47_S4096x47_1_0_0_1_n_n_wf : DotDims.WF S4096x256 S256x47 S4096x47 [1] [0] [0] [1] [] []

variable [Facts₀]

def gather_S409600x100_S1536000x1_S1536000x100_1_0_n_n_0_1_1100 : GatherDims S409600x100 S1536000x1 S1536000x100 where
  offsetDims := [1]
  collapsedSliceDims := [0]
  operandBatchingDims := []
  startIndicesBatchingDims := []
  startIndexMap := [0]
  indexVectorDim := 1
  sliceSizes := ![1, 100]
  wf := gather_S409600x100_S1536000x1_S1536000x100_1_0_n_n_0_1_1100_wf
def scatter_S102400x100_S1536000x1_S1536000x100_1_0_0_1 : ScatterDims S102400x100 S1536000x1 S1536000x100 where
  updateWindowDims := [1]
  insertedWindowDims := [0]
  scatterDimsToOperandDims := [0]
  indexVectorDim := 1
  wf := scatter_S102400x100_S1536000x1_S1536000x100_1_0_0_1_wf
def scatter_S102400_S1536000x1_S1536000_n_0_0_1 : ScatterDims S102400 S1536000x1 S1536000 where
  updateWindowDims := []
  insertedWindowDims := [0]
  scatterDimsToOperandDims := [0]
  indexVectorDim := 1
  wf := scatter_S102400_S1536000x1_S1536000_n_0_0_1_wf
def dot_S102400x100_S100x256_S102400x256_1_0_0_1_n_n : DotDims S102400x100 S100x256 S102400x256 where
  lhsContracting := [1]
  rhsContracting := [0]
  lhsNonContracting := [0]
  rhsNonContracting := [1]
  lhsBatch := []
  rhsBatch := []
  wf := dot_S102400x100_S100x256_S102400x256_1_0_0_1_n_n_wf
def gather_S102400x256_S256000x1_S256000x256_1_0_n_n_0_1_1256 : GatherDims S102400x256 S256000x1 S256000x256 where
  offsetDims := [1]
  collapsedSliceDims := [0]
  operandBatchingDims := []
  startIndicesBatchingDims := []
  startIndexMap := [0]
  indexVectorDim := 1
  sliceSizes := ![1, 256]
  wf := gather_S102400x256_S256000x1_S256000x256_1_0_n_n_0_1_1256_wf
def scatter_S25600x256_S256000x1_S256000x256_1_0_0_1 : ScatterDims S25600x256 S256000x1 S256000x256 where
  updateWindowDims := [1]
  insertedWindowDims := [0]
  scatterDimsToOperandDims := [0]
  indexVectorDim := 1
  wf := scatter_S25600x256_S256000x1_S256000x256_1_0_0_1_wf
def scatter_S25600_S256000x1_S256000_n_0_0_1 : ScatterDims S25600 S256000x1 S256000 where
  updateWindowDims := []
  insertedWindowDims := [0]
  scatterDimsToOperandDims := [0]
  indexVectorDim := 1
  wf := scatter_S25600_S256000x1_S256000_n_0_0_1_wf
def dot_S25600x256_S256x256_S25600x256_1_0_0_1_n_n : DotDims S25600x256 S256x256 S25600x256 where
  lhsContracting := [1]
  rhsContracting := [0]
  lhsNonContracting := [0]
  rhsNonContracting := [1]
  lhsBatch := []
  rhsBatch := []
  wf := dot_S25600x256_S256x256_S25600x256_1_0_0_1_n_n_wf
def gather_S25600x256_S40960x1_S40960x256_1_0_n_n_0_1_1256 : GatherDims S25600x256 S40960x1 S40960x256 where
  offsetDims := [1]
  collapsedSliceDims := [0]
  operandBatchingDims := []
  startIndicesBatchingDims := []
  startIndexMap := [0]
  indexVectorDim := 1
  sliceSizes := ![1, 256]
  wf := gather_S25600x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S4096x256_S256x47_S4096x47_1_0_0_1_n_n : DotDims S4096x256 S256x47 S4096x47 where
  lhsContracting := [1]
  rhsContracting := [0]
  lhsNonContracting := [0]
  rhsNonContracting := [1]
  lhsBatch := []
  rhsBatch := []
  wf := dot_S4096x256_S256x47_S4096x47_1_0_0_1_n_n_wf

class Facts : Prop extends Facts₀ where

variable [Facts]
-- ==== Proof.KRun.lean ====
/-
  The idealized kernel program's run with its three results kept.

  The program is three pipelined regions (one per graph-convolution layer) among four stretches of host operations.
  Folding the program from the launch memory gives the buffer contents at each boundary; the last of them, after the
  closing log-softmax stretch, is what every unscoped buffer holds when the program returns. The frame statement only
  reads the sixteen argument buffers off that last boundary. Here the same run is read at three more buffers: the
  log-softmax output, the last layer's pre-activation, and the second layer's activations. Each is stated as the fold's
  value at that buffer; the modules that import this one compute those three values.
-/
import proofs.«136288_j16209206575331_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution of the program terminates without a fault; in the final state the three result buffers
    hold the last boundary's contents, and the sixteen arguments are as launched. -/
theorem run_results : θ_run defs (onTc (τ := τ) (main (F := F))) ⟨m, fun _ => 0, ρ⟩ (fun r => ∀ c : Dev nD,
      r.2.mem ((c.tc : Thread nD τ).loc main_v66) = W7 m ρ c (Proc.devRef .tc main_v66)
      ∧ r.2.mem ((c.tc : Thread nD τ).loc main_v65) = W7 m ρ c (Proc.devRef .tc main_v65)
      ∧ r.2.mem ((c.tc : Thread nD τ).loc main_v43) = W7 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v66 (by decide)),
       h c _ (mem_uc main_v65 (by decide)),
       h c _ (mem_uc main_v43 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c)⟩)

end Cert.KernelIdeal.ResultRun

end
-- ==== Proof.Layer0.lean ====
/-
  Layer 0 of the graph convolution, as the pipelined region computes it.

  The region tiles the 102400 target rows into 50 blocks of 2048 rows. At block t the body multiplies the
  block of aggregated neighbour means (2048 × 100) by the left weight matrix contracted along the feature axis,
  does the same for the block of the targets' own features with the right weight matrix, adds the two products, adds
  the bias row, and clips at zero. On the extended reals the conversions to a narrower float format are the identity and a
  product into a zero accumulator is the plain sum over the 100 features, so entry (r, o) of the block is
      max ((Σₖ mean[r,k]·Wl[o,k] + Σₖ x[r,k]·Wr[o,k]) + b[o]) 0.
  Block t of the output array is rows t·2048 … t·2048+2047; the means and the targets' features move with it, the
  weights and the bias are the same whole arrays at every block. The blocks cover every row, so the output array is that
  one function of the five arrays the region reads, entry by entry.
-/
import proofs.«136288_j16209206575331_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer0

open Cert.KernelIdeal Cert.KernelIdeal.Gen
open Idealize.ShloMosaic Idealize.ShloMosaic.TcCoe Idealize.SL.Sem
open Idealize.ShloMosaic.ValueIdx
open Idealize.ShloMosaic.Pipeline (Dat)

/-! ## The layer as one function of five arrays -/

/-- Entry (r, o) of the layer's output from the five arrays it reads. -/
def entry (mean xt : S102400x100.Idx → EReal) (Wl : S256x100.Idx → EReal) (bl : S1x256.Idx → EReal)
    (Wr : S256x100.Idx → EReal) (r : Fin 102400) (o : Fin 256) : EReal :=
  max ((∑ k : Fin 100, mean (ix2 r k) * Wl (ix2 o k) + ∑ k : Fin 100, xt (ix2 r k) * Wr (ix2 o k)) + bl (ix2 (0 : Fin 1) o)) 0

/-- The layer's output array. -/
def layer (mean xt : S102400x100.Idx → EReal) (Wl : S256x100.Idx → EReal) (bl : S1x256.Idx → EReal)
    (Wr : S256x100.Idx → EReal) : S102400x256.Idx → EReal :=
  fun i => entry mean xt Wl bl Wr ⟨(i 0).val, idx2_lt0 i⟩ ⟨(i 1).val, idx2_lt1 i⟩

/-! ## The body's arithmetic at an entry of the block -/

/-- The dimension numbers of both products: contract the second axis of each operand. -/
abbrev dotB := dot_S2048x100_S256x100_S2048x256_1_1_0_0_n_n

/-- The left operand's index at output entry `j` and contraction index `q` keeps the output's row. -/
theorem lhs_row (j : S2048x256.Idx) (q : dotB.contr.Idx) : (dotB.lhsIdx j q 0).val = (j 0).val := by
  unfold DotDims.lhsIdx
  rw [dif_neg (show ¬(0 : Fin S2048x100.rank) ∈ dotB.lhsBatch by decide), dif_pos (show (0 : Fin S2048x100.rank) ∈ dotB.lhsNonContracting by decide)]
  rfl

/-- The right operand's row is the output's column: the weights are contracted along their second axis. -/
theorem rhs_row (j : S2048x256.Idx) (q : dotB.contr.Idx) : (dotB.rhsIdx j q 0).val = (j 1).val := by
  unfold DotDims.rhsIdx
  rw [dif_neg (show ¬(0 : Fin S256x100.rank) ∈ dotB.rhsBatch by decide), dif_pos (show (0 : Fin S256x100.rank) ∈ dotB.rhsNonContracting by decide)]
  rfl

/-- A product of a block by a weight matrix into the zero accumulator, at entry (p, q): the sum over the features. -/
theorem product_apply (a : FVec Ideal S2048x100 .f32) (w : FVec Ideal S256x100 .f32) (p : Fin 2048) (q : Fin 256) :
    FloatOps.matmul dotB none (truncf .bf16 a bitsLt_bf16_f32) (truncf .bf16 w bitsLt_bf16_f32)
        (constant (F := Ideal) S2048x256 .f32 0x00000000#32) (ix2 p q)
      = ∑ k : Fin 100, a (ix2 p k) * w (ix2 q k) := by
  rw [Ideal.matmul_constant_zero_apply, ← Equiv.sum_comp (contrEquiv1 dotB 100 rfl rfl).symm]
  refine Finset.sum_congr rfl fun k _ => ?_
  have hk := contrEquiv1_symm_val dotB 100 rfl rfl k
  have el : dotB.lhsIdx (ix2 p q) ((contrEquiv1 dotB 100 rfl rfl).symm k) = ix2 p k := funext fun d => Fin.ext (by
    match d with
    | ⟨0, _⟩ => exact lhs_row _ _
    | ⟨1, _⟩ => exact (dotB.lhsIdx_val_of_single rfl _ _).trans hk)
  have er : dotB.rhsIdx (ix2 p q) ((contrEquiv1 dotB 100 rfl rfl).symm k) = ix2 q k := funext fun d => Fin.ext (by
    match d with
    | ⟨0, _⟩ => exact rhs_row _ _
    | ⟨1, _⟩ => exact (dotB.rhsIdx_val_of_single rfl _ _).trans hk)
  rw [el, er]
  rfl

/-- The bias row spread over the block's rows, at entry (p, q): the bias of column q. -/
theorem bias_apply (b : S1x256.Idx → EReal) (p : Fin 2048) (q : Fin 256) :
    broadcastTo S2048x256 b broadcasts_S1x256_S2048x256 (ix2 p q) = b (ix2 (0 : Fin 1) q) :=
  broadcastTo_apply b broadcasts_S1x256_S2048x256 (ix2 p q) (ix2 (0 : Fin 1) q) (fun d => match d with
    | ⟨0, _⟩ => by show 0 = if (1 : Nat) = 1 then 0 else _; rw [if_pos rfl]
    | ⟨1, _⟩ => by show q.val = if (256 : Nat) = 1 then 0 else q.val; rw [if_neg (by decide)])

/-- The value the body stores, at entry (p, q) of the block, from the five blocks it loads. -/
theorem stored_apply (x0 x1 : Vec Ideal S2048x100 .f32) (x2 x4 : Vec Ideal S256x100 .f32) (x3 : Vec Ideal S1x256 .f32)
    (p : Fin 2048) (q : Fin 256) :
    k0_pay1 (F := Ideal) x0 x1 x2 x4 x3 (ix2 p q)
      = max ((∑ k : Fin 100, x0 (ix2 p k) * x2 (ix2 q k) + ∑ k : Fin 100, x1 (ix2 p k) * x4 (ix2 q k)) + x3 (ix2 (0 : Fin 1) q)) 0 := by
  unfold k0_pay1
  simp only [shapeCast_self]
  show max ((FloatOps.matmul dotB none (truncf .bf16 x0 bitsLt_bf16_f32) (truncf .bf16 x2 bitsLt_bf16_f32) (constant (F := Ideal) S2048x256 .f32 0x00000000#32) (ix2 p q)
      + FloatOps.matmul dotB none (truncf .bf16 x1 bitsLt_bf16_f32) (truncf .bf16 x4 bitsLt_bf16_f32) (constant (F := Ideal) S2048x256 .f32 0x00000000#32) (ix2 p q))
      + broadcastTo S2048x256 x3 broadcasts_S1x256_S2048x256 (ix2 p q)) (Ideal.ofBits .f32 0x00000000#32) = _
  rw [product_apply, product_apply, bias_apply, Ideal.ofBits_zero_f32]

/-- The same under coordinate hypotheses: if each loaded block reads its array where entry `i` of the output needs it
    (row `i 0` of the two row-blocked operands, row `i 1` of the two weight matrices, column `i 1` of the bias), the
    stored value at `j` is the layer's entry `i`. -/
theorem stored_eq_layer (mean xt : S102400x100.Idx → EReal) (Wl : S256x100.Idx → EReal) (bl : S1x256.Idx → EReal)
    (Wr : S256x100.Idx → EReal)
    (x0 x1 : Vec Ideal S2048x100 .f32) (x2 x4 : Vec Ideal S256x100 .f32) (x3 : Vec Ideal S1x256 .f32)
    (j : S2048x256.Idx) (i : S102400x256.Idx)
    (h0 : ∀ k : Fin 100, x0 (ix2 (n0 := 2048) ⟨(j 0).val, idx2_lt0 j⟩ k) = mean (ix2 (n0 := 102400) ⟨(i 0).val, idx2_lt0 i⟩ k))
    (h1 : ∀ k : Fin 100, x1 (ix2 (n0 := 2048) ⟨(j 0).val, idx2_lt0 j⟩ k) = xt (ix2 (n0 := 102400) ⟨(i 0).val, idx2_lt0 i⟩ k))
    (h2 : ∀ k : Fin 100, x2 (ix2 (n0 := 256) ⟨(j 1).val, idx2_lt1 j⟩ k) = Wl (ix2 (n0 := 256) ⟨(i 1).val, idx2_lt1 i⟩ k))
    (h4 : ∀ k : Fin 100, x4 (ix2 (n0 := 256) ⟨(j 1).val, idx2_lt1 j⟩ k) = Wr (ix2 (n0 := 256) ⟨(i 1).val, idx2_lt1 i⟩ k))
    (h3 : x3 (ix2 (0 : Fin 1) (⟨(j 1).val, idx2_lt1 j⟩ : Fin 256)) = bl (ix2 (0 : Fin 1) (⟨(i 1).val, idx2_lt1 i⟩ : Fin 256))) :
    k0_pay1 (F := Ideal) x0 x1 x2 x4 x3 j = layer mean xt Wl bl Wr i := by
  have hj : j = ix2 (n0 := 2048) (n1 := 256) ⟨(j 0).val, idx2_lt0 j⟩ ⟨(j 1).val, idx2_lt1 j⟩ := by
    funext d; match d with | ⟨0, _⟩ => rfl | ⟨1, _⟩ => rfl
  refine (congrArg (k0_pay1 (F := Ideal) x0 x1 x2 x4 x3) hj).trans ?_
  refine (stored_apply x0 x1 x2 x4 x3 _ _).trans ?_
  unfold layer entry
  simp only [h0, h1, h2, h4, h3]

/-! ## From the blocks to the array -/

theorem zero_offsets : (![0, 0] : Fin 2 → Nat) = fun _ => 0 := funext fun a => by fin_cases a <;> rfl

/-- The windows' index maps over the grid: the two row-blocked operands and the output are at block row `t`, the weights
    and the bias at block (0, 0), at every point `t`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the layer of the five arrays as the region finds them. -/
theorem written_back (V : (c : Dev nD) → (b : Ref sig .tc) → Buf (Elt Ideal) ((c : Thread nD τ).loc b)) (c : Dev nD) (t : Fin cfg0.N) :
    (dat0 (F := Ideal) V c).flushed 5 t = ((cfg0.win 5).blk t).view.read (Elt Ideal)
      (layer (V c main_v18) (V c main_v19) (V c main_arg1) (V c main_v20) (V c main_arg3)) := by
  show (cfg0.win 5).cut (grid0.coords t) ((dat0 V c).after 5 t) = _
  rw [after0_5]
  unfold out0_5
  rw [View.canon_unit_zero zero_offsets]
  simp only [View.ld_unit_zero (S := S2048x100) zero_offsets, View.ld_unit_zero (S := S256x100) zero_offsets, View.ld_unit_zero (S := S1x256) zero_offsets]
  obtain ⟨e00, e01, e10, e11, e20, e21, e30, e31, e40, e41, e50, e51⟩ := block_index t
  funext j
  have hj0 : (j 0).val < 2048 := (j 0).isLt
  have hj1 : (j 1).val < 256 := (j 1).isLt
  refine stored_eq_layer (V c main_v18) (V c main_v19) (V c main_arg1) (V c main_v20) (V c main_arg3)
    (iblk0 V c 0 t) (iblk0 V c 1 t) (iblk0 V c 2 t) (iblk0 V c 4 t) (iblk0 V c 3 t) j (((cfg0.win 5).blk t).view.emb j) ?_ ?_ ?_ ?_ ?_
  · intro k
    show V c main_v18 (((cfg0.win 0).blk t).view.emb (ix2 (n0 := 2048) ⟨(j 0).val, idx2_lt0 j⟩ k)) = V c main_v18 _
    refine congrArg (V c main_v18) (funext fun d => Fin.ext ?_)
    match d with
    | ⟨0, _⟩ => show win0_0.index t (0 : Fin 2) * 2048 + 1 * (j 0).val = win0_5.index t (0 : Fin 2) * 2048 + 1 * (j 0).val; omega
    | ⟨1, _⟩ => show win0_0.index t (1 : Fin 2) * 100 + 1 * k.val = k.val; omega
  · intro k
    show V c main_v19 (((cfg0.win 1).blk t).view.emb (ix2 (n0 := 2048) ⟨(j 0).val, idx2_lt0 j⟩ k)) = V c main_v19 _
    refine congrArg (V c main_v19) (funext fun d => Fin.ext ?_)
    match d with
    | ⟨0, _⟩ => show win0_1.index t (0 : Fin 2) * 2048 + 1 * (j 0).val = win0_5.index t (0 : Fin 2) * 2048 + 1 * (j 0).val; omega
    | ⟨1, _⟩ => show win0_1.index t (1 : Fin 2) * 100 + 1 * k.val = k.val; omega
  · intro k
    show V c main_arg1 (((cfg0.win 2).blk t).view.emb (ix2 (n0 := 256) ⟨(j 1).val, idx2_lt1 j⟩ k)) = V c main_arg1 _
    refine congrArg (V c main_arg1) (funext fun d => Fin.ext ?_)
    match d with
    | ⟨0, _⟩ => show win0_2.index t (0 : Fin 2) * 256 + 1 * (j 1).val = win0_5.index t (1 : Fin 2) * 256 + 1 * (j 1).val; omega
    | ⟨1, _⟩ => show win0_2.index t (1 : Fin 2) * 100 + 1 * k.val = k.val; omega
  · intro k
    show V c main_arg3 (((cfg0.win 4).blk t).view.emb (ix2 (n0 := 256) ⟨(j 1).val, idx2_lt1 j⟩ k)) = V c main_arg3 _
    refine congrArg (V c main_arg3) (funext fun d => Fin.ext ?_)
    match d with
    | ⟨0, _⟩ => show win0_4.index t (0 : Fin 2) * 256 + 1 * (j 1).val = win0_5.index t (1 : Fin 2) * 256 + 1 * (j 1).val; omega
    | ⟨1, _⟩ => show win0_4.index t (1 : Fin 2) * 100 + 1 * k.val = k.val; omega
  · show V c main_v20 (((cfg0.win 3).blk t).view.emb (ix2 (0 : Fin 1) (⟨(j 1).val, idx2_lt1 j⟩ : Fin 256))) = V c main_v20 _
    refine congrArg (V c main_v20) (funext fun d => Fin.ext ?_)
    match d with
    | ⟨0, _⟩ => show win0_3.index t (0 : Fin 2) * 1 + 1 * 0 = 0; omega
    | ⟨1, _⟩ => show win0_3.index t (1 : Fin 2) * 256 + 1 * (j 1).val = win0_5.index t (1 : Fin 2) * 256 + 1 * (j 1).val; omega

/-- An index of the output array is in point `t`'s block iff each coordinate is in the block's range on its axis. -/
theorem mem_block (t : Fin cfg0.N) (i : S102400x256.Idx) :
    i ∈ ((cfg0.win 5).blk t).view.set ↔ ∀ a : Fin 2, win0_5.index t a * S2048x256.size a ≤ (i a).val ∧ (i a).val < win0_5.index t a * S2048x256.size a + S2048x256.size a := by
  show i ∈ ((View.whole main_v21).slice (win0_5.rect t)).set ↔ _
  rw [View.set_slice_whole, Rect.mem_set_unit]
  exact Iff.rfl

/-- Every row of the output is in some point's block: row r is in block r / 2048. -/
theorem rows_covered (i : S102400x256.Idx) :
    ∃ t : Fin cfg0.N, (cfg0.win 5).flush t = true ∧ i ∈ ((cfg0.win 5).blk t).view.set := by
  have hi0 : (i 0).val < 102400 := (i 0).isLt
  have hi1 : (i 1).val < 256 := (i 1).isLt
  have hN : (i 0).val / 2048 < cfg0.N := by show _ < grid0.N; rw [N_0]; omega
  obtain ⟨-, -, -, -, -, -, -, -, -, -, e50, e51⟩ := block_index ⟨(i 0).val / 2048, hN⟩
  have e50' : win0_5.index ⟨(i 0).val / 2048, hN⟩ (0 : Fin 2) = (i 0).val / 2048 := e50
  refine ⟨⟨(i 0).val / 2048, hN⟩, flush0_5 _, ?_⟩
  rw [mem_block]
  intro a
  match a with
  | ⟨0, _⟩ => show win0_5.index ⟨(i 0).val / 2048, hN⟩ (0 : Fin 2) * 2048 ≤ (i 0).val ∧ (i 0).val < win0_5.index ⟨(i 0).val / 2048, hN⟩ (0 : Fin 2) * 2048 + 2048; omega
  | ⟨1, _⟩ => show win0_5.index ⟨(i 0).val / 2048, hN⟩ (1 : Fin 2) * 256 ≤ (i 1).val ∧ (i 1).val < win0_5.index ⟨(i 0).val / 2048, hN⟩ (1 : Fin 2) * 256 + 256; omega

/-- The output array after the region, whatever contents `V` the region is entered from: the layer of the five arrays. -/
theorem output (V : (c : Dev nD) → (b : Ref sig .tc) → Buf (Elt Ideal) ((c : Thread nD τ).loc b)) (c : Dev nD) :
    (dat0 (F := Ideal) V c).arrAt 5 cfg0.N = layer (V c main_v18) (V c main_v19) (V c main_arg1) (V c main_v20) (V c main_arg3) :=
  (dat0 (F := Ideal) V c).arrAt_eq_of_cover 5 _ (fun t _ => written_back V c t) rows_covered

end Cert.KernelIdeal.Layer0

end
-- ==== Proof.Layer1.lean ====
/-
  Layer 1 of the graph convolution, as the pipelined region computes it.

  The region tiles the 25600 target rows into 10 blocks of 2560 rows. At block t the body multiplies the
  block of aggregated neighbour means (2560 × 256) by the left weight matrix contracted along the feature axis,
  does the same for the block of the targets' own features with the right weight matrix, adds the two products, adds
  the bias row, and clips at zero. On the extended reals the conversions to a narrower float format are the identity and a
  product into a zero accumulator is the plain sum over the 256 features, so entry (r, o) of the block is
      max ((Σₖ mean[r,k]·Wl[o,k] + Σₖ x[r,k]·Wr[o,k]) + b[o]) 0.
  Block t of the output array is rows t·2560 … t·2560+2559; the means and the targets' features move with it, the
  weights and the bias are the same whole arrays at every block. The blocks cover every row, so the output array is that
  one function of the five arrays the region reads, entry by entry.
-/
import proofs.«136288_j16209206575331_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen
open Idealize.ShloMosaic Idealize.ShloMosaic.TcCoe Idealize.SL.Sem
open Idealize.ShloMosaic.ValueIdx
open Idealize.ShloMosaic.Pipeline (Dat)

/-! ## The layer as one function of five arrays -/

/-- Entry (r, o) of the layer's output from the five arrays it reads. -/
def entry (mean xt : S25600x256.Idx → EReal) (Wl : S256x256.Idx → EReal) (bl : S1x256.Idx → EReal)
    (Wr : S256x256.Idx → EReal) (r : Fin 25600) (o : Fin 256) : EReal :=
  max ((∑ k : Fin 256, mean (ix2 r k) * Wl (ix2 o k) + ∑ k : Fin 256, xt (ix2 r k) * Wr (ix2 o k)) + bl (ix2 (0 : Fin 1) o)) 0

/-- The layer's output array. -/
def layer (mean xt : S25600x256.Idx → EReal) (Wl : S256x256.Idx → EReal) (bl : S1x256.Idx → EReal)
    (Wr : S256x256.Idx → EReal) : S25600x256.Idx → EReal :=
  fun i => entry mean xt Wl bl Wr ⟨(i 0).val, idx2_lt0 i⟩ ⟨(i 1).val, idx2_lt1 i⟩

/-! ## The body's arithmetic at an entry of the block -/

/-- The dimension numbers of both products: contract the second axis of each operand. -/
abbrev dotB := dot_S2560x256_S256x256_S2560x256_1_1_0_0_n_n

/-- The left operand's index at output entry `j` and contraction index `q` keeps the output's row. -/
theorem lhs_row (j : S2560x256.Idx) (q : dotB.contr.Idx) : (dotB.lhsIdx j q 0).val = (j 0).val := by
  unfold DotDims.lhsIdx
  rw [dif_neg (show ¬(0 : Fin S2560x256.rank) ∈ dotB.lhsBatch by decide), dif_pos (show (0 : Fin S2560x256.rank) ∈ dotB.lhsNonContracting by decide)]
  rfl

/-- The right operand's row is the output's column: the weights are contracted along their second axis. -/
theorem rhs_row (j : S2560x256.Idx) (q : dotB.contr.Idx) : (dotB.rhsIdx j q 0).val = (j 1).val := by
  unfold DotDims.rhsIdx
  rw [dif_neg (show ¬(0 : Fin S256x256.rank) ∈ dotB.rhsBatch by decide), dif_pos (show (0 : Fin S256x256.rank) ∈ dotB.rhsNonContracting by decide)]
  rfl

/-- A product of a block by a weight matrix into the zero accumulator, at entry (p, q): the sum over the features. -/
theorem product_apply (a : FVec Ideal S2560x256 .f32) (w : FVec Ideal S256x256 .f32) (p : Fin 2560) (q : Fin 256) :
    FloatOps.matmul dotB none (truncf .bf16 a bitsLt_bf16_f32) (truncf .bf16 w bitsLt_bf16_f32)
        (constant (F := Ideal) S2560x256 .f32 0x00000000#32) (ix2 p q)
      = ∑ k : Fin 256, a (ix2 p k) * w (ix2 q k) := by
  rw [Ideal.matmul_constant_zero_apply, ← Equiv.sum_comp (contrEquiv1 dotB 256 rfl rfl).symm]
  refine Finset.sum_congr rfl fun k _ => ?_
  have hk := contrEquiv1_symm_val dotB 256 rfl rfl k
  have el : dotB.lhsIdx (ix2 p q) ((contrEquiv1 dotB 256 rfl rfl).symm k) = ix2 p k := funext fun d => Fin.ext (by
    match d with
    | ⟨0, _⟩ => exact lhs_row _ _
    | ⟨1, _⟩ => exact (dotB.lhsIdx_val_of_single rfl _ _).trans hk)
  have er : dotB.rhsIdx (ix2 p q) ((contrEquiv1 dotB 256 rfl rfl).symm k) = ix2 q k := funext fun d => Fin.ext (by
    match d with
    | ⟨0, _⟩ => exact rhs_row _ _
    | ⟨1, _⟩ => exact (dotB.rhsIdx_val_of_single rfl _ _).trans hk)
  rw [el, er]
  rfl

/-- The bias row spread over the block's rows, at entry (p, q): the bias of column q. -/
theorem bias_apply (b : S1x256.Idx → EReal) (p : Fin 2560) (q : Fin 256) :
    broadcastTo S2560x256 b broadcasts_S1x256_S2560x256 (ix2 p q) = b (ix2 (0 : Fin 1) q) :=
  broadcastTo_apply b broadcasts_S1x256_S2560x256 (ix2 p q) (ix2 (0 : Fin 1) q) (fun d => match d with
    | ⟨0, _⟩ => by show 0 = if (1 : Nat) = 1 then 0 else _; rw [if_pos rfl]
    | ⟨1, _⟩ => by show q.val = if (256 : Nat) = 1 then 0 else q.val; rw [if_neg (by decide)])

/-- The value the body stores, at entry (p, q) of the block, from the five blocks it loads. -/
theorem stored_apply (x0 x1 : Vec Ideal S2560x256 .f32) (x2 x4 : Vec Ideal S256x256 .f32) (x3 : Vec Ideal S1x256 .f32)
    (p : Fin 2560) (q : Fin 256) :
    k1_pay1 (F := Ideal) x0 x1 x2 x4 x3 (ix2 p q)
      = max ((∑ k : Fin 256, x0 (ix2 p k) * x2 (ix2 q k) + ∑ k : Fin 256, x1 (ix2 p k) * x4 (ix2 q k)) + x3 (ix2 (0 : Fin 1) q)) 0 := by
  unfold k1_pay1
  simp only [shapeCast_self]
  show max ((FloatOps.matmul dotB none (truncf .bf16 x0 bitsLt_bf16_f32) (truncf .bf16 x2 bitsLt_bf16_f32) (constant (F := Ideal) S2560x256 .f32 0x00000000#32) (ix2 p q)
      + FloatOps.matmul dotB none (truncf .bf16 x1 bitsLt_bf16_f32) (truncf .bf16 x4 bitsLt_bf16_f32) (constant (F := Ideal) S2560x256 .f32 0x00000000#32) (ix2 p q))
      + broadcastTo S2560x256 x3 broadcasts_S1x256_S2560x256 (ix2 p q)) (Ideal.ofBits .f32 0x00000000#32) = _
  rw [product_apply, product_apply, bias_apply, Ideal.ofBits_zero_f32]

/-- The same under coordinate hypotheses: if each loaded block reads its array where entry `i` of the output needs it
    (row `i 0` of the two row-blocked operands, row `i 1` of the two weight matrices, column `i 1` of the bias), the
    stored value at `j` is the layer's entry `i`. -/
theorem stored_eq_layer (mean xt : S25600x256.Idx → EReal) (Wl : S256x256.Idx → EReal) (bl : S1x256.Idx → EReal)
    (Wr : S256x256.Idx → EReal)
    (x0 x1 : Vec Ideal S2560x256 .f32) (x2 x4 : Vec Ideal S256x256 .f32) (x3 : Vec Ideal S1x256 .f32)
    (j : S2560x256.Idx) (i : S25600x256.Idx)
    (h0 : ∀ k : Fin 256, x0 (ix2 (n0 := 2560) ⟨(j 0).val, idx2_lt0 j⟩ k) = mean (ix2 (n0 := 25600) ⟨(i 0).val, idx2_lt0 i⟩ k))
    (h1 : ∀ k : Fin 256, x1 (ix2 (n0 := 2560) ⟨(j 0).val, idx2_lt0 j⟩ k) = xt (ix2 (n0 := 25600) ⟨(i 0).val, idx2_lt0 i⟩ k))
    (h2 : ∀ k : Fin 256, x2 (ix2 (n0 := 256) ⟨(j 1).val, idx2_lt1 j⟩ k) = Wl (ix2 (n0 := 256) ⟨(i 1).val, idx2_lt1 i⟩ k))
    (h4 : ∀ k : Fin 256, x4 (ix2 (n0 := 256) ⟨(j 1).val, idx2_lt1 j⟩ k) = Wr (ix2 (n0 := 256) ⟨(i 1).val, idx2_lt1 i⟩ k))
    (h3 : x3 (ix2 (0 : Fin 1) (⟨(j 1).val, idx2_lt1 j⟩ : Fin 256)) = bl (ix2 (0 : Fin 1) (⟨(i 1).val, idx2_lt1 i⟩ : Fin 256))) :
    k1_pay1 (F := Ideal) x0 x1 x2 x4 x3 j = layer mean xt Wl bl Wr i := by
  have hj : j = ix2 (n0 := 2560) (n1 := 256) ⟨(j 0).val, idx2_lt0 j⟩ ⟨(j 1).val, idx2_lt1 j⟩ := by
    funext d; match d with | ⟨0, _⟩ => rfl | ⟨1, _⟩ => rfl
  refine (congrArg (k1_pay1 (F := Ideal) x0 x1 x2 x4 x3) hj).trans ?_
  refine (stored_apply x0 x1 x2 x4 x3 _ _).trans ?_
  unfold layer entry
  simp only [h0, h1, h2, h4, h3]

/-! ## From the blocks to the array -/

theorem zero_offsets : (![0, 0] : Fin 2 → Nat) = fun _ => 0 := funext fun a => by fin_cases a <;> rfl

/-- The windows' index maps over the grid: the two row-blocked operands and the output are at block row `t`, the weights
    and the bias at block (0, 0), at every point `t`. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer of the five arrays as the region finds them. -/
theorem written_back (V : (c : Dev nD) → (b : Ref sig .tc) → Buf (Elt Ideal) ((c : Thread nD τ).loc b)) (c : Dev nD) (t : Fin cfg1.N) :
    (dat1 (F := Ideal) V c).flushed 5 t = ((cfg1.win 5).blk t).view.read (Elt Ideal)
      (layer (V c main_v40) (V c main_v41) (V c main_arg4) (V c main_v42) (V c main_arg6)) := by
  show (cfg1.win 5).cut (grid1.coords t) ((dat1 V c).after 5 t) = _
  rw [after1_5]
  unfold out1_5
  rw [View.canon_unit_zero zero_offsets]
  simp only [View.ld_unit_zero (S := S2560x256) zero_offsets, View.ld_unit_zero (S := S256x256) zero_offsets, View.ld_unit_zero (S := S1x256) zero_offsets]
  obtain ⟨e00, e01, e10, e11, e20, e21, e30, e31, e40, e41, e50, e51⟩ := block_index t
  funext j
  have hj0 : (j 0).val < 2560 := (j 0).isLt
  have hj1 : (j 1).val < 256 := (j 1).isLt
  refine stored_eq_layer (V c main_v40) (V c main_v41) (V c main_arg4) (V c main_v42) (V c main_arg6)
    (iblk1 V c 0 t) (iblk1 V c 1 t) (iblk1 V c 2 t) (iblk1 V c 4 t) (iblk1 V c 3 t) j (((cfg1.win 5).blk t).view.emb j) ?_ ?_ ?_ ?_ ?_
  · intro k
    show V c main_v40 (((cfg1.win 0).blk t).view.emb (ix2 (n0 := 2560) ⟨(j 0).val, idx2_lt0 j⟩ k)) = V c main_v40 _
    refine congrArg (V c main_v40) (funext fun d => Fin.ext ?_)
    match d with
    | ⟨0, _⟩ => show win1_0.index t (0 : Fin 2) * 2560 + 1 * (j 0).val = win1_5.index t (0 : Fin 2) * 2560 + 1 * (j 0).val; omega
    | ⟨1, _⟩ => show win1_0.index t (1 : Fin 2) * 256 + 1 * k.val = k.val; omega
  · intro k
    show V c main_v41 (((cfg1.win 1).blk t).view.emb (ix2 (n0 := 2560) ⟨(j 0).val, idx2_lt0 j⟩ k)) = V c main_v41 _
    refine congrArg (V c main_v41) (funext fun d => Fin.ext ?_)
    match d with
    | ⟨0, _⟩ => show win1_1.index t (0 : Fin 2) * 2560 + 1 * (j 0).val = win1_5.index t (0 : Fin 2) * 2560 + 1 * (j 0).val; omega
    | ⟨1, _⟩ => show win1_1.index t (1 : Fin 2) * 256 + 1 * k.val = k.val; omega
  · intro k
    show V c main_arg4 (((cfg1.win 2).blk t).view.emb (ix2 (n0 := 256) ⟨(j 1).val, idx2_lt1 j⟩ k)) = V c main_arg4 _
    refine congrArg (V c main_arg4) (funext fun d => Fin.ext ?_)
    match d with
    | ⟨0, _⟩ => show win1_2.index t (0 : Fin 2) * 256 + 1 * (j 1).val = win1_5.index t (1 : Fin 2) * 256 + 1 * (j 1).val; omega
    | ⟨1, _⟩ => show win1_2.index t (1 : Fin 2) * 256 + 1 * k.val = k.val; omega
  · intro k
    show V c main_arg6 (((cfg1.win 4).blk t).view.emb (ix2 (n0 := 256) ⟨(j 1).val, idx2_lt1 j⟩ k)) = V c main_arg6 _
    refine congrArg (V c main_arg6) (funext fun d => Fin.ext ?_)
    match d with
    | ⟨0, _⟩ => show win1_4.index t (0 : Fin 2) * 256 + 1 * (j 1).val = win1_5.index t (1 : Fin 2) * 256 + 1 * (j 1).val; omega
    | ⟨1, _⟩ => show win1_4.index t (1 : Fin 2) * 256 + 1 * k.val = k.val; omega
  · show V c main_v42 (((cfg1.win 3).blk t).view.emb (ix2 (0 : Fin 1) (⟨(j 1).val, idx2_lt1 j⟩ : Fin 256))) = V c main_v42 _
    refine congrArg (V c main_v42) (funext fun d => Fin.ext ?_)
    match d with
    | ⟨0, _⟩ => show win1_3.index t (0 : Fin 2) * 1 + 1 * 0 = 0; omega
    | ⟨1, _⟩ => show win1_3.index t (1 : Fin 2) * 256 + 1 * (j 1).val = win1_5.index t (1 : Fin 2) * 256 + 1 * (j 1).val; omega

/-- An index of the output array is in point `t`'s block iff each coordinate is in the block's range on its axis. -/
theorem mem_block (t : Fin cfg1.N) (i : S25600x256.Idx) :
    i ∈ ((cfg1.win 5).blk t).view.set ↔ ∀ a : Fin 2, win1_5.index t a * S2560x256.size a ≤ (i a).val ∧ (i a).val < win1_5.index t a * S2560x256.size a + S2560x256.size a := by
  show i ∈ ((View.whole main_v43).slice (win1_5.rect t)).set ↔ _
  rw [View.set_slice_whole, Rect.mem_set_unit]
  exact Iff.rfl

/-- Every row of the output is in some point's block: row r is in block r / 2560. -/
theorem rows_covered (i : S25600x256.Idx) :
    ∃ t : Fin cfg1.N, (cfg1.win 5).flush t = true ∧ i ∈ ((cfg1.win 5).blk t).view.set := by
  have hi0 : (i 0).val < 25600 := (i 0).isLt
  have hi1 : (i 1).val < 256 := (i 1).isLt
  have hN : (i 0).val / 2560 < cfg1.N := by show _ < grid1.N; rw [N_1]; omega
  obtain ⟨-, -, -, -, -, -, -, -, -, -, e50, e51⟩ := block_index ⟨(i 0).val / 2560, hN⟩
  have e50' : win1_5.index ⟨(i 0).val / 2560, hN⟩ (0 : Fin 2) = (i 0).val / 2560 := e50
  refine ⟨⟨(i 0).val / 2560, hN⟩, flush1_5 _, ?_⟩
  rw [mem_block]
  intro a
  match a with
  | ⟨0, _⟩ => show win1_5.index ⟨(i 0).val / 2560, hN⟩ (0 : Fin 2) * 2560 ≤ (i 0).val ∧ (i 0).val < win1_5.index ⟨(i 0).val / 2560, hN⟩ (0 : Fin 2) * 2560 + 2560; omega
  | ⟨1, _⟩ => show win1_5.index ⟨(i 0).val / 2560, hN⟩ (1 : Fin 2) * 256 ≤ (i 1).val ∧ (i 1).val < win1_5.index ⟨(i 0).val / 2560, hN⟩ (1 : Fin 2) * 256 + 256; omega

/-- The output array after the region, whatever contents `V` the region is entered from: the layer of the five arrays. -/
theorem output (V : (c : Dev nD) → (b : Ref sig .tc) → Buf (Elt Ideal) ((c : Thread nD τ).loc b)) (c : Dev nD) :
    (dat1 (F := Ideal) V c).arrAt 5 cfg1.N = layer (V c main_v40) (V c main_v41) (V c main_arg4) (V c main_v42) (V c main_arg6) :=
  (dat1 (F := Ideal) V c).arrAt_eq_of_cover 5 _ (fun t _ => written_back V c t) rows_covered

end Cert.KernelIdeal.Layer1

end
-- ==== Proof.Layer2.lean ====
/-
  Layer 2 of the graph convolution, as the pipelined region computes it.

  The region tiles the 4096 target rows into 4 blocks of 1024 rows. At block t the body multiplies the
  block of aggregated neighbour means (1024 × 256) by the left weight matrix contracted along the feature axis,
  does the same for the block of the targets' own features with the right weight matrix, adds the two products, adds
  the bias row. On the extended reals the conversions to a narrower float format are the identity and a
  product into a zero accumulator is the plain sum over the 256 features, so entry (r, o) of the block is
      (Σₖ mean[r,k]·Wl[o,k] + Σₖ x[r,k]·Wr[o,k]) + b[o].
  Block t of the output array is rows t·1024 … t·1024+1023; the means and the targets' features move with it, the
  weights and the bias are the same whole arrays at every block. The blocks cover every row, so the output array is that
  one function of the five arrays the region reads, entry by entry.
-/
import proofs.«136288_j16209206575331_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer2

open Cert.KernelIdeal Cert.KernelIdeal.Gen
open Idealize.ShloMosaic Idealize.ShloMosaic.TcCoe Idealize.SL.Sem
open Idealize.ShloMosaic.ValueIdx
open Idealize.ShloMosaic.Pipeline (Dat)

/-! ## The layer as one function of five arrays -/

/-- Entry (r, o) of the layer's output from the five arrays it reads. -/
def entry (mean xt : S4096x256.Idx → EReal) (Wl : S47x256.Idx → EReal) (bl : S1x47.Idx → EReal)
    (Wr : S47x256.Idx → EReal) (r : Fin 4096) (o : Fin 47) : EReal :=
  (∑ k : Fin 256, mean (ix2 r k) * Wl (ix2 o k) + ∑ k : Fin 256, xt (ix2 r k) * Wr (ix2 o k)) + bl (ix2 (0 : Fin 1) o)

/-- The layer's output array. -/
def layer (mean xt : S4096x256.Idx → EReal) (Wl : S47x256.Idx → EReal) (bl : S1x47.Idx → EReal)
    (Wr : S47x256.Idx → EReal) : S4096x47.Idx → EReal :=
  fun i => entry mean xt Wl bl Wr ⟨(i 0).val, idx2_lt0 i⟩ ⟨(i 1).val, idx2_lt1 i⟩

/-! ## The body's arithmetic at an entry of the block -/

/-- The dimension numbers of both products: contract the second axis of each operand. -/
abbrev dotB := dot_S1024x256_S47x256_S1024x47_1_1_0_0_n_n

/-- The left operand's index at output entry `j` and contraction index `q` keeps the output's row. -/
theorem lhs_row (j : S1024x47.Idx) (q : dotB.contr.Idx) : (dotB.lhsIdx j q 0).val = (j 0).val := by
  unfold DotDims.lhsIdx
  rw [dif_neg (show ¬(0 : Fin S1024x256.rank) ∈ dotB.lhsBatch by decide), dif_pos (show (0 : Fin S1024x256.rank) ∈ dotB.lhsNonContracting by decide)]
  rfl

/-- The right operand's row is the output's column: the weights are contracted along their second axis. -/
theorem rhs_row (j : S1024x47.Idx) (q : dotB.contr.Idx) : (dotB.rhsIdx j q 0).val = (j 1).val := by
  unfold DotDims.rhsIdx
  rw [dif_neg (show ¬(0 : Fin S47x256.rank) ∈ dotB.rhsBatch by decide), dif_pos (show (0 : Fin S47x256.rank) ∈ dotB.rhsNonContracting by decide)]
  rfl

/-- A product of a block by a weight matrix into the zero accumulator, at entry (p, q): the sum over the features. -/
theorem product_apply (a : FVec Ideal S1024x256 .f32) (w : FVec Ideal S47x256 .f32) (p : Fin 1024) (q : Fin 47) :
    FloatOps.matmul dotB none (truncf .bf16 a bitsLt_bf16_f32) (truncf .bf16 w bitsLt_bf16_f32)
        (constant (F := Ideal) S1024x47 .f32 0x00000000#32) (ix2 p q)
      = ∑ k : Fin 256, a (ix2 p k) * w (ix2 q k) := by
  rw [Ideal.matmul_constant_zero_apply, ← Equiv.sum_comp (contrEquiv1 dotB 256 rfl rfl).symm]
  refine Finset.sum_congr rfl fun k _ => ?_
  have hk := contrEquiv1_symm_val dotB 256 rfl rfl k
  have el : dotB.lhsIdx (ix2 p q) ((contrEquiv1 dotB 256 rfl rfl).symm k) = ix2 p k := funext fun d => Fin.ext (by
    match d with
    | ⟨0, _⟩ => exact lhs_row _ _
    | ⟨1, _⟩ => exact (dotB.lhsIdx_val_of_single rfl _ _).trans hk)
  have er : dotB.rhsIdx (ix2 p q) ((contrEquiv1 dotB 256 rfl rfl).symm k) = ix2 q k := funext fun d => Fin.ext (by
    match d with
    | ⟨0, _⟩ => exact rhs_row _ _
    | ⟨1, _⟩ => exact (dotB.rhsIdx_val_of_single rfl _ _).trans hk)
  rw [el, er]
  rfl

/-- The bias row spread over the block's rows, at entry (p, q): the bias of column q. -/
theorem bias_apply (b : S1x47.Idx → EReal) (p : Fin 1024) (q : Fin 47) :
    broadcastTo S1024x47 b broadcasts_S1x47_S1024x47 (ix2 p q) = b (ix2 (0 : Fin 1) q) :=
  broadcastTo_apply b broadcasts_S1x47_S1024x47 (ix2 p q) (ix2 (0 : Fin 1) q) (fun d => match d with
    | ⟨0, _⟩ => by show 0 = if (1 : Nat) = 1 then 0 else _; rw [if_pos rfl]
    | ⟨1, _⟩ => by show q.val = if (47 : Nat) = 1 then 0 else q.val; rw [if_neg (by decide)])

/-- The value the body stores, at entry (p, q) of the block, from the five blocks it loads. -/
theorem stored_apply (x0 x1 : Vec Ideal S1024x256 .f32) (x2 x4 : Vec Ideal S47x256 .f32) (x3 : Vec Ideal S1x47 .f32)
    (p : Fin 1024) (q : Fin 47) :
    k2_pay1 (F := Ideal) x0 x1 x2 x4 x3 (ix2 p q)
      = (∑ k : Fin 256, x0 (ix2 p k) * x2 (ix2 q k) + ∑ k : Fin 256, x1 (ix2 p k) * x4 (ix2 q k)) + x3 (ix2 (0 : Fin 1) q) := by
  unfold k2_pay1
  simp only [shapeCast_self]
  show (FloatOps.matmul dotB none (truncf .bf16 x0 bitsLt_bf16_f32) (truncf .bf16 x2 bitsLt_bf16_f32) (constant (F := Ideal) S1024x47 .f32 0x00000000#32) (ix2 p q)
      + FloatOps.matmul dotB none (truncf .bf16 x1 bitsLt_bf16_f32) (truncf .bf16 x4 bitsLt_bf16_f32) (constant (F := Ideal) S1024x47 .f32 0x00000000#32) (ix2 p q))
      + broadcastTo S1024x47 x3 broadcasts_S1x47_S1024x47 (ix2 p q) = _
  rw [product_apply, product_apply, bias_apply]

/-- The same under coordinate hypotheses: if each loaded block reads its array where entry `i` of the output needs it
    (row `i 0` of the two row-blocked operands, row `i 1` of the two weight matrices, column `i 1` of the bias), the
    stored value at `j` is the layer's entry `i`. -/
theorem stored_eq_layer (mean xt : S4096x256.Idx → EReal) (Wl : S47x256.Idx → EReal) (bl : S1x47.Idx → EReal)
    (Wr : S47x256.Idx → EReal)
    (x0 x1 : Vec Ideal S1024x256 .f32) (x2 x4 : Vec Ideal S47x256 .f32) (x3 : Vec Ideal S1x47 .f32)
    (j : S1024x47.Idx) (i : S4096x47.Idx)
    (h0 : ∀ k : Fin 256, x0 (ix2 (n0 := 1024) ⟨(j 0).val, idx2_lt0 j⟩ k) = mean (ix2 (n0 := 4096) ⟨(i 0).val, idx2_lt0 i⟩ k))
    (h1 : ∀ k : Fin 256, x1 (ix2 (n0 := 1024) ⟨(j 0).val, idx2_lt0 j⟩ k) = xt (ix2 (n0 := 4096) ⟨(i 0).val, idx2_lt0 i⟩ k))
    (h2 : ∀ k : Fin 256, x2 (ix2 (n0 := 47) ⟨(j 1).val, idx2_lt1 j⟩ k) = Wl (ix2 (n0 := 47) ⟨(i 1).val, idx2_lt1 i⟩ k))
    (h4 : ∀ k : Fin 256, x4 (ix2 (n0 := 47) ⟨(j 1).val, idx2_lt1 j⟩ k) = Wr (ix2 (n0 := 47) ⟨(i 1).val, idx2_lt1 i⟩ k))
    (h3 : x3 (ix2 (0 : Fin 1) (⟨(j 1).val, idx2_lt1 j⟩ : Fin 47)) = bl (ix2 (0 : Fin 1) (⟨(i 1).val, idx2_lt1 i⟩ : Fin 47))) :
    k2_pay1 (F := Ideal) x0 x1 x2 x4 x3 j = layer mean xt Wl bl Wr i := by
  have hj : j = ix2 (n0 := 1024) (n1 := 47) ⟨(j 0).val, idx2_lt0 j⟩ ⟨(j 1).val, idx2_lt1 j⟩ := by
    funext d; match d with | ⟨0, _⟩ => rfl | ⟨1, _⟩ => rfl
  refine (congrArg (k2_pay1 (F := Ideal) x0 x1 x2 x4 x3) hj).trans ?_
  refine (stored_apply x0 x1 x2 x4 x3 _ _).trans ?_
  unfold layer entry
  simp only [h0, h1, h2, h4, h3]

/-! ## From the blocks to the array -/

theorem zero_offsets : (![0, 0] : Fin 2 → Nat) = fun _ => 0 := funext fun a => by fin_cases a <;> rfl

/-- The windows' index maps over the grid: the two row-blocked operands and the output are at block row `t`, the weights
    and the bias at block (0, 0), at every point `t`. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the layer of the five arrays as the region finds them. -/
theorem written_back (V : (c : Dev nD) → (b : Ref sig .tc) → Buf (Elt Ideal) ((c : Thread nD τ).loc b)) (c : Dev nD) (t : Fin cfg2.N) :
    (dat2 (F := Ideal) V c).flushed 5 t = ((cfg2.win 5).blk t).view.read (Elt Ideal)
      (layer (V c main_v62) (V c main_v63) (V c main_arg7) (V c main_v64) (V c main_arg9)) := by
  show (cfg2.win 5).cut (grid2.coords t) ((dat2 V c).after 5 t) = _
  rw [after2_5]
  unfold out2_5
  rw [View.canon_unit_zero zero_offsets]
  simp only [View.ld_unit_zero (S := S1024x256) zero_offsets, View.ld_unit_zero (S := S47x256) zero_offsets, View.ld_unit_zero (S := S1x47) zero_offsets]
  obtain ⟨e00, e01, e10, e11, e20, e21, e30, e31, e40, e41, e50, e51⟩ := block_index t
  funext j
  have hj0 : (j 0).val < 1024 := (j 0).isLt
  have hj1 : (j 1).val < 47 := (j 1).isLt
  refine stored_eq_layer (V c main_v62) (V c main_v63) (V c main_arg7) (V c main_v64) (V c main_arg9)
    (iblk2 V c 0 t) (iblk2 V c 1 t) (iblk2 V c 2 t) (iblk2 V c 4 t) (iblk2 V c 3 t) j (((cfg2.win 5).blk t).view.emb j) ?_ ?_ ?_ ?_ ?_
  · intro k
    show V c main_v62 (((cfg2.win 0).blk t).view.emb (ix2 (n0 := 1024) ⟨(j 0).val, idx2_lt0 j⟩ k)) = V c main_v62 _
    refine congrArg (V c main_v62) (funext fun d => Fin.ext ?_)
    match d with
    | ⟨0, _⟩ => show win2_0.index t (0 : Fin 2) * 1024 + 1 * (j 0).val = win2_5.index t (0 : Fin 2) * 1024 + 1 * (j 0).val; omega
    | ⟨1, _⟩ => show win2_0.index t (1 : Fin 2) * 256 + 1 * k.val = k.val; omega
  · intro k
    show V c main_v63 (((cfg2.win 1).blk t).view.emb (ix2 (n0 := 1024) ⟨(j 0).val, idx2_lt0 j⟩ k)) = V c main_v63 _
    refine congrArg (V c main_v63) (funext fun d => Fin.ext ?_)
    match d with
    | ⟨0, _⟩ => show win2_1.index t (0 : Fin 2) * 1024 + 1 * (j 0).val = win2_5.index t (0 : Fin 2) * 1024 + 1 * (j 0).val; omega
    | ⟨1, _⟩ => show win2_1.index t (1 : Fin 2) * 256 + 1 * k.val = k.val; omega
  · intro k
    show V c main_arg7 (((cfg2.win 2).blk t).view.emb (ix2 (n0 := 47) ⟨(j 1).val, idx2_lt1 j⟩ k)) = V c main_arg7 _
    refine congrArg (V c main_arg7) (funext fun d => Fin.ext ?_)
    match d with
    | ⟨0, _⟩ => show win2_2.index t (0 : Fin 2) * 47 + 1 * (j 1).val = win2_5.index t (1 : Fin 2) * 47 + 1 * (j 1).val; omega
    | ⟨1, _⟩ => show win2_2.index t (1 : Fin 2) * 256 + 1 * k.val = k.val; omega
  · intro k
    show V c main_arg9 (((cfg2.win 4).blk t).view.emb (ix2 (n0 := 47) ⟨(j 1).val, idx2_lt1 j⟩ k)) = V c main_arg9 _
    refine congrArg (V c main_arg9) (funext fun d => Fin.ext ?_)
    match d with
    | ⟨0, _⟩ => show win2_4.index t (0 : Fin 2) * 47 + 1 * (j 1).val = win2_5.index t (1 : Fin 2) * 47 + 1 * (j 1).val; omega
    | ⟨1, _⟩ => show win2_4.index t (1 : Fin 2) * 256 + 1 * k.val = k.val; omega
  · show V c main_v64 (((cfg2.win 3).blk t).view.emb (ix2 (0 : Fin 1) (⟨(j 1).val, idx2_lt1 j⟩ : Fin 47))) = V c main_v64 _
    refine congrArg (V c main_v64) (funext fun d => Fin.ext ?_)
    match d with
    | ⟨0, _⟩ => show win2_3.index t (0 : Fin 2) * 1 + 1 * 0 = 0; omega
    | ⟨1, _⟩ => show win2_3.index t (1 : Fin 2) * 47 + 1 * (j 1).val = win2_5.index t (1 : Fin 2) * 47 + 1 * (j 1).val; omega

/-- An index of the output array is in point `t`'s block iff each coordinate is in the block's range on its axis. -/
theorem mem_block (t : Fin cfg2.N) (i : S4096x47.Idx) :
    i ∈ ((cfg2.win 5).blk t).view.set ↔ ∀ a : Fin 2, win2_5.index t a * S1024x47.size a ≤ (i a).val ∧ (i a).val < win2_5.index t a * S1024x47.size a + S1024x47.size a := by
  show i ∈ ((View.whole main_v65).slice (win2_5.rect t)).set ↔ _
  rw [View.set_slice_whole, Rect.mem_set_unit]
  exact Iff.rfl

/-- Every row of the output is in some point's block: row r is in block r / 1024. -/
theorem rows_covered (i : S4096x47.Idx) :
    ∃ t : Fin cfg2.N, (cfg2.win 5).flush t = true ∧ i ∈ ((cfg2.win 5).blk t).view.set := by
  have hi0 : (i 0).val < 4096 := (i 0).isLt
  have hi1 : (i 1).val < 47 := (i 1).isLt
  have hN : (i 0).val / 1024 < cfg2.N := by show _ < grid2.N; rw [N_2]; omega
  obtain ⟨-, -, -, -, -, -, -, -, -, -, e50, e51⟩ := block_index ⟨(i 0).val / 1024, hN⟩
  have e50' : win2_5.index ⟨(i 0).val / 1024, hN⟩ (0 : Fin 2) = (i 0).val / 1024 := e50
  refine ⟨⟨(i 0).val / 1024, hN⟩, flush2_5 _, ?_⟩
  rw [mem_block]
  intro a
  match a with
  | ⟨0, _⟩ => show win2_5.index ⟨(i 0).val / 1024, hN⟩ (0 : Fin 2) * 1024 ≤ (i 0).val ∧ (i 0).val < win2_5.index ⟨(i 0).val / 1024, hN⟩ (0 : Fin 2) * 1024 + 1024; omega
  | ⟨1, _⟩ => show win2_5.index ⟨(i 0).val / 1024, hN⟩ (1 : Fin 2) * 47 ≤ (i 1).val ∧ (i 1).val < win2_5.index ⟨(i 0).val / 1024, hN⟩ (1 : Fin 2) * 47 + 47; omega

/-- The output array after the region, whatever contents `V` the region is entered from: the layer of the five arrays. -/
theorem output (V : (c : Dev nD) → (b : Ref sig .tc) → Buf (Elt Ideal) ((c : Thread nD τ).loc b)) (c : Dev nD) :
    (dat2 (F := Ideal) V c).arrAt 5 cfg2.N = layer (V c main_v62) (V c main_v63) (V c main_arg7) (V c main_v64) (V c main_arg9) :=
  (dat2 (F := Ideal) V c).arrAt_eq_of_cover 5 _ (fun t _ => written_back V c t) rows_covered

end Cert.KernelIdeal.Layer2

end
-- ==== Proof.RefLayers.lean ====
/-
  The reference's three layers are the regions' layer functions.

  The reference computes a layer as (mean · Wlᵀ + b) + x · Wrᵀ, each product a contraction of the features after an
  explicit transposition of the weights, the bias spread over the rows; the pipelined region computes
  (mean · Wlᵀ + x · Wrᵀ) + b. Read at an entry (r, o) both are sums over the features of mean[r,k]·Wl[o,k] and of
  x[r,k]·Wr[o,k] and the bias b[o]; only the order of the last two additions differs, and addition on the extended
  reals is commutative and associative. The aggregated means and the targets' own rows enter as the same two arrays on
  both sides and are never opened.
-/
import proofs.«136288_j16209206575331_1_alg».proof.Proof.Layer0
import proofs.«136288_j16209206575331_1_alg».proof.Proof.Layer1
import proofs.«136288_j16209206575331_1_alg».proof.Proof.Layer2
import proofs.«136288_j16209206575331_1_alg».proof.Proof.RefReadP

set_option maxRecDepth 16384

noncomputable section

namespace Cert.RefLayers

open Idealize.ShloMosaic Idealize.ShloMosaic.ValueIdx
open Cert.ReferenceIdeal Cert.ReferenceIdeal.ReadP

/-- Layer 0 of the reference at an entry: max ((Σₖ mean·Wl + b) + Σₖ x·Wr) 0; moving the bias past the second sum (addition on the
    extended reals is commutative and associative, with no finiteness needed) gives the region's layer function. -/
theorem layer0_eq (x0 : (⟨S409600x100, .f32⟩ : BufTy).Contents (Elt Ideal)) (x1 : (⟨S256x100, .f32⟩ : BufTy).Contents (Elt Ideal)) (x2 : (⟨S256, .f32⟩ : BufTy).Contents (Elt Ideal)) (x3 : (⟨S256x100, .f32⟩ : BufTy).Contents (Elt Ideal)) (x10 x11 : (⟨S1536000, .i32⟩ : BufTy).Contents (Elt Ideal))
    (B : Cert.KernelIdeal.S1x256.Idx → EReal) (hB : ∀ o : Fin 256, B (ix2 (0 : Fin 1) o) = x2 (ix1 o)) :
    Cert.KernelIdeal.Layer0.layer (val_main_v19 (F := Ideal) x0 x10 x11) (val_main_v0 (F := Ideal) x0) x1 B x3
      = val_main_v28 (F := Ideal) x0 x1 x2 x3 x10 x11 := by
  funext i
  have hi0 : (i 0).val < 102400 := (i 0).isLt
  have hi1 : (i 1).val < 256 := (i 1).isLt
  rw [val_main_v28_apply, val_main_v27_apply, val_main_v24_apply, val_main_v21_apply, val_main_v26_apply, val_main_v23_apply, val_main_v22_apply, val_main_call0_v0_apply, val_main_call0_cst_apply]
  simp only [val_main_v20_apply, val_main_v25_apply]
  have e1 : ∀ k : Fin 100, lidx_main_v21 i k = ix2 (n0 := 102400) ⟨(i 0).val, hi0⟩ k :=
    fun k => funext fun a => by match a with | ⟨0, _⟩ => rfl | ⟨1, _⟩ => rfl
  have e2 : ∀ k : Fin 100, idx_main_v20 (ridx_main_v21 i k) = ix2 (n0 := 256) ⟨(i 1).val, hi1⟩ k :=
    fun k => funext fun a => by match a with | ⟨0, _⟩ => rfl | ⟨1, _⟩ => rfl
  have e3 : ∀ k : Fin 100, lidx_main_v26 i k = ix2 (n0 := 102400) ⟨(i 0).val, hi0⟩ k :=
    fun k => funext fun a => by match a with | ⟨0, _⟩ => rfl | ⟨1, _⟩ => rfl
  have e4 : ∀ k : Fin 100, idx_main_v25 (ridx_main_v26 i k) = ix2 (n0 := 256) ⟨(i 1).val, hi1⟩ k :=
    fun k => funext fun a => by match a with | ⟨0, _⟩ => rfl | ⟨1, _⟩ => rfl
  have e5 : idx_main_v22 (idx_main_v23 i) = ix1 (⟨(i 1).val, hi1⟩ : Fin 256) :=
    funext fun a => by match a with | ⟨0, _⟩ => rfl
  simp only [e1, e2, e3, e4, e5]
  unfold Cert.KernelIdeal.Layer0.layer Cert.KernelIdeal.Layer0.entry
  rw [hB, add_right_comm]
  simp only [Ideal.maximumf_def, Ideal.addf_def, Ideal.ofBits_def, Ideal.ofBits_zero_f32]

/-- Layer 1 of the reference at an entry: max ((Σₖ mean·Wl + b) + Σₖ x·Wr) 0; moving the bias past the second sum (addition on the
    extended reals is commutative and associative, with no finiteness needed) gives the region's layer function. -/
theorem layer1_eq (x0 : (⟨S409600x100, .f32⟩ : BufTy).Contents (Elt Ideal)) (x1 : (⟨S256x100, .f32⟩ : BufTy).Contents (Elt Ideal)) (x2 : (⟨S256, .f32⟩ : BufTy).Contents (Elt Ideal)) (x3 : (⟨S256x100, .f32⟩ : BufTy).Contents (Elt Ideal)) (x10 x11 : (⟨S1536000, .i32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x12 x13 : (⟨S256000, .i32⟩ : BufTy).Contents (Elt Ideal))
    (B : Cert.KernelIdeal.S1x256.Idx → EReal) (hB : ∀ o : Fin 256, B (ix2 (0 : Fin 1) o) = x5 (ix1 o)) :
    Cert.KernelIdeal.Layer1.layer (val_main_v48 (F := Ideal) x0 x1 x2 x3 x10 x11 x12 x13) (val_main_v29 (F := Ideal) x0 x1 x2 x3 x10 x11) x4 B x6
      = val_main_v57 (F := Ideal) x0 x1 x2 x3 x4 x5 x6 x10 x11 x12 x13 := by
  funext i
  have hi0 : (i 0).val < 25600 := (i 0).isLt
  have hi1 : (i 1).val < 256 := (i 1).isLt
  rw [val_main_v57_apply, val_main_v56_apply, val_main_v53_apply, val_main_v50_apply, val_main_v55_apply, val_main_v52_apply, val_main_v51_apply, val_main_call1_v0_apply, val_main_call1_cst_apply]
  simp only [val_main_v49_apply, val_main_v54_apply]
  have e1 : ∀ k : Fin 256, lidx_main_v50 i k = ix2 (n0 := 25600) ⟨(i 0).val, hi0⟩ k :=
    fun k => funext fun a => by match a with | ⟨0, _⟩ => rfl | ⟨1, _⟩ => rfl
  have e2 : ∀ k : Fin 256, idx_main_v49 (ridx_main_v50 i k) = ix2 (n0 := 256) ⟨(i 1).val, hi1⟩ k :=
    fun k => funext fun a => by match a with | ⟨0, _⟩ => rfl | ⟨1, _⟩ => rfl
  have e3 : ∀ k : Fin 256, lidx_main_v55 i k = ix2 (n0 := 25600) ⟨(i 0).val, hi0⟩ k :=
    fun k => funext fun a => by match a with | ⟨0, _⟩ => rfl | ⟨1, _⟩ => rfl
  have e4 : ∀ k : Fin 256, idx_main_v54 (ridx_main_v55 i k) = ix2 (n0 := 256) ⟨(i 1).val, hi1⟩ k :=
    fun k => funext fun a => by match a with | ⟨0, _⟩ => rfl | ⟨1, _⟩ => rfl
  have e5 : idx_main_v51 (idx_main_v52 i) = ix1 (⟨(i 1).val, hi1⟩ : Fin 256) :=
    funext fun a => by match a with | ⟨0, _⟩ => rfl
  simp only [e1, e2, e3, e4, e5]
  unfold Cert.KernelIdeal.Layer1.layer Cert.KernelIdeal.Layer1.entry
  rw [hB, add_right_comm]
  simp only [Ideal.maximumf_def, Ideal.addf_def, Ideal.ofBits_def, Ideal.ofBits_zero_f32]

/-- Layer 2 of the reference at an entry: (Σₖ mean·Wl + b) + Σₖ x·Wr; moving the bias past the second sum (addition on the
    extended reals is commutative and associative, with no finiteness needed) gives the region's layer function. -/
theorem layer2_eq (x0 : (⟨S409600x100, .f32⟩ : BufTy).Contents (Elt Ideal)) (x1 : (⟨S256x100, .f32⟩ : BufTy).Contents (Elt Ideal)) (x2 : (⟨S256, .f32⟩ : BufTy).Contents (Elt Ideal)) (x3 : (⟨S256x100, .f32⟩ : BufTy).Contents (Elt Ideal)) (x10 x11 : (⟨S1536000, .i32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x12 x13 : (⟨S256000, .i32⟩ : BufTy).Contents (Elt Ideal)) (x7 : (⟨S47x256, .f32⟩ : BufTy).Contents (Elt Ideal)) (x8 : (⟨S47, .f32⟩ : BufTy).Contents (Elt Ideal)) (x9 : (⟨S47x256, .f32⟩ : BufTy).Contents (Elt Ideal)) (x14 x15 : (⟨S40960, .i32⟩ : BufTy).Contents (Elt Ideal))
    (B : Cert.KernelIdeal.S1x47.Idx → EReal) (hB : ∀ o : Fin 47, B (ix2 (0 : Fin 1) o) = x8 (ix1 o)) :
    Cert.KernelIdeal.Layer2.layer (val_main_v77 (F := Ideal) x0 x1 x2 x3 x4 x5 x6 x10 x11 x12 x13 x14 x15) (val_main_v58 (F := Ideal) x0 x1 x2 x3 x4 x5 x6 x10 x11 x12 x13) x7 B x9
      = val_main_v85 (F := Ideal) x0 x1 x2 x3 x4 x5 x6 x7 x8 x9 x10 x11 x12 x13 x14 x15 := by
  funext i
  have hi0 : (i 0).val < 4096 := (i 0).isLt
  have hi1 : (i 1).val < 47 := (i 1).isLt
  rw [val_main_v85_apply, val_main_v82_apply, val_main_v79_apply, val_main_v84_apply, val_main_v81_apply, val_main_v80_apply]
  simp only [val_main_v78_apply, val_main_v83_apply]
  have e1 : ∀ k : Fin 256, lidx_main_v79 i k = ix2 (n0 := 4096) ⟨(i 0).val, hi0⟩ k :=
    fun k => funext fun a => by match a with | ⟨0, _⟩ => rfl | ⟨1, _⟩ => rfl
  have e2 : ∀ k : Fin 256, idx_main_v78 (ridx_main_v79 i k) = ix2 (n0 := 47) ⟨(i 1).val, hi1⟩ k :=
    fun k => funext fun a => by match a with | ⟨0, _⟩ => rfl | ⟨1, _⟩ => rfl
  have e3 : ∀ k : Fin 256, lidx_main_v84 i k = ix2 (n0 := 4096) ⟨(i 0).val, hi0⟩ k :=
    fun k => funext fun a => by match a with | ⟨0, _⟩ => rfl | ⟨1, _⟩ => rfl
  have e4 : ∀ k : Fin 256, idx_main_v83 (ridx_main_v84 i k) = ix2 (n0 := 47) ⟨(i 1).val, hi1⟩ k :=
    fun k => funext fun a => by match a with | ⟨0, _⟩ => rfl | ⟨1, _⟩ => rfl
  have e5 : idx_main_v80 (idx_main_v81 i) = ix1 (⟨(i 1).val, hi1⟩ : Fin 47) :=
    funext fun a => by match a with | ⟨0, _⟩ => rfl
  simp only [e1, e2, e3, e4, e5]
  unfold Cert.KernelIdeal.Layer2.layer Cert.KernelIdeal.Layer2.entry
  rw [hB, add_right_comm]
  simp only [Ideal.addf_def]

end Cert.RefLayers

end
-- ==== Proof.Fold.lean ====
/-
  The three results of the idealized kernel program as the reference's stages of the launch arguments.

  Folding the program from the launch memory: the first stretch of host operations forms the neighbour means of the
  input features (gather along the source indices, sum into the target rows, divide by the clipped counts), takes the
  targets' own rows and reshapes the bias; region 0 turns these and the two weight matrices into layer 0's output; the
  second stretch does the same aggregation on that output; region 1 gives layer 1's output; the third stretch and region
  2 give layer 2's; the last stretch is the row-wise log-softmax of it. Each aggregation is the same composition of host
  operations as in the reference and is carried whole, as the reference's own stage, never opened; each region's output
  is the layer function of its five input arrays, which is the reference's layer by the exchange of two additions. The
  arguments are written by nothing, so every later boundary still holds them as launched.
-/
import proofs.«136288_j16209206575331_1_alg».proof.Proof.Layer0
import proofs.«136288_j16209206575331_1_alg».proof.Proof.Layer1
import proofs.«136288_j16209206575331_1_alg».proof.Proof.Layer2
import proofs.«136288_j16209206575331_1_alg».proof.Proof.RefLayers
import Idealize.ShloMosaic.Lib.StableHlo.Run
import Idealize.ShloMosaic.Lib.ValueLayout

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-! ## The arguments at the regions' exits -/

theorem W2_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results_simp <;> rfl

theorem W2_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results_simp <;> rfl

theorem W2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results_simp <;> rfl

theorem W2_arg12 (c : Dev nD) : W2 m ρ c (Proc.devRef .tc main_arg12) = m ((c : Thread nD τ).loc main_arg12) := by
  rw [W2_of_ne m ρ c main_arg12 (by decide)]
  show StableHlo.after hostOps0 (W0 m ρ c) (Proc.devRef .tc main_arg12) = _
  after_results_simp <;> rfl

theorem W2_arg13 (c : Dev nD) : W2 m ρ c (Proc.devRef .tc main_arg13) = m ((c : Thread nD τ).loc main_arg13) := by
  rw [W2_of_ne m ρ c main_arg13 (by decide)]
  show StableHlo.after hostOps0 (W0 m ρ c) (Proc.devRef .tc main_arg13) = _
  after_results_simp <;> rfl

theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results_simp <;> rfl

theorem W2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results_simp <;> rfl

theorem W2_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results_simp <;> rfl

theorem W2_arg14 (c : Dev nD) : W2 m ρ c (Proc.devRef .tc main_arg14) = m ((c : Thread nD τ).loc main_arg14) := by
  rw [W2_of_ne m ρ c main_arg14 (by decide)]
  show StableHlo.after hostOps0 (W0 m ρ c) (Proc.devRef .tc main_arg14) = _
  after_results_simp <;> rfl

theorem W2_arg15 (c : Dev nD) : W2 m ρ c (Proc.devRef .tc main_arg15) = m ((c : Thread nD τ).loc main_arg15) := by
  rw [W2_of_ne m ρ c main_arg15 (by decide)]
  show StableHlo.after hostOps0 (W0 m ρ c) (Proc.devRef .tc main_arg15) = _
  after_results_simp <;> rfl

theorem W4_arg7 (c : Dev nD) : W4 m ρ c (Proc.devRef .tc main_arg7) = m ((c : Thread nD τ).loc main_arg7) := by
  rw [W4_of_ne m ρ c main_arg7 (by decide)]
  show StableHlo.after hostOps1 (W2 m ρ c) (Proc.devRef .tc main_arg7) = _
  after_results_simp
  exact W2_arg7 m ρ c

theorem W4_arg8 (c : Dev nD) : W4 m ρ c (Proc.devRef .tc main_arg8) = m ((c : Thread nD τ).loc main_arg8) := by
  rw [W4_of_ne m ρ c main_arg8 (by decide)]
  show StableHlo.after hostOps1 (W2 m ρ c) (Proc.devRef .tc main_arg8) = _
  after_results_simp
  exact W2_arg8 m ρ c

theorem W4_arg9 (c : Dev nD) : W4 m ρ c (Proc.devRef .tc main_arg9) = m ((c : Thread nD τ).loc main_arg9) := by
  rw [W4_of_ne m ρ c main_arg9 (by decide)]
  show StableHlo.after hostOps1 (W2 m ρ c) (Proc.devRef .tc main_arg9) = _
  after_results_simp
  exact W2_arg9 m ρ c

theorem W4_arg14 (c : Dev nD) : W4 m ρ c (Proc.devRef .tc main_arg14) = m ((c : Thread nD τ).loc main_arg14) := by
  rw [W4_of_ne m ρ c main_arg14 (by decide)]
  show StableHlo.after hostOps1 (W2 m ρ c) (Proc.devRef .tc main_arg14) = _
  after_results_simp
  exact W2_arg14 m ρ c

theorem W4_arg15 (c : Dev nD) : W4 m ρ c (Proc.devRef .tc main_arg15) = m ((c : Thread nD τ).loc main_arg15) := by
  rw [W4_of_ne m ρ c main_arg15 (by decide)]
  show StableHlo.after hostOps1 (W2 m ρ c) (Proc.devRef .tc main_arg15) = _
  after_results_simp
  exact W2_arg15 m ρ c

/-! ## Layer 0 -/

set_option maxHeartbeats 4000000 in
/-- Region 0's output array is the reference's first activation. -/
theorem out0 (c : Dev nD) :
    W2 m ρ c (Proc.devRef .tc main_v21) = Cert.ReferenceIdeal.ReadP.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11)) := by
  refine (W2_arr m ρ c 5).trans ?_
  refine (Layer0.output (V1 m ρ) c).trans ?_
  have h_mean : V1 m ρ c main_v18 = Cert.ReferenceIdeal.ReadP.val_main_v19 (F := Ideal) (m ((c : Thread nD τ).loc main_arg0)) (m ((c : Thread nD τ).loc main_arg10)) (m ((c : Thread nD τ).loc main_arg11)) := by
    show StableHlo.after hostOps0 (W0 m ρ c) (Proc.devRef .tc main_v18) = _
    after_results_simp
    rfl
  have h_xt : V1 m ρ c main_v19 = Cert.ReferenceIdeal.ReadP.val_main_v0 (F := Ideal) (m ((c : Thread nD τ).loc main_arg0)) := by
    show StableHlo.after hostOps0 (W0 m ρ c) (Proc.devRef .tc main_v19) = _
    after_results_simp
    rfl
  have h_wl : V1 m ρ c main_arg1 = (m ((c : Thread nD τ).loc main_arg1)) := by
    show StableHlo.after hostOps0 (W0 m ρ c) (Proc.devRef .tc main_arg1) = _
    after_results_simp <;> rfl
  have h_wr : V1 m ρ c main_arg3 = (m ((c : Thread nD τ).loc main_arg3)) := by
    show StableHlo.after hostOps0 (W0 m ρ c) (Proc.devRef .tc main_arg3) = _
    after_results_simp <;> rfl
  have h_bl : V1 m ρ c main_v20 = shapeCast S1x256 (m ((c : Thread nD τ).loc main_arg2)) shapeCasts_S256_S1x256 := by
    show StableHlo.after hostOps0 (W0 m ρ c) (Proc.devRef .tc main_v20) = _
    after_results_simp
    rfl
  rw [h_mean, h_xt, h_wl, h_wr, h_bl]
  exact Cert.RefLayers.layer0_eq (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11)) _ (fun o => shapeCast_a_1a_apply (m ((c : Thread nD τ).loc main_arg2)) shapeCasts_S256_S1x256 0 o)

/-! ## Layer 1 -/

set_option maxHeartbeats 4000000 in
/-- Region 1's output array is the reference's second activation. -/
theorem out1 (c : Dev nD) :
    W4 m ρ c (Proc.devRef .tc main_v43) = Cert.ReferenceIdeal.ReadP.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13)) := by
  refine (W4_arr m ρ c 5).trans ?_
  refine (Layer1.output (V3 m ρ) c).trans ?_
  have h_mean : V3 m ρ c main_v40 = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11)) (m ((c : Thread nD τ).loc main_arg12)) (m ((c : Thread nD τ).loc main_arg13)) := by
    show StableHlo.after hostOps1 (W2 m ρ c) (Proc.devRef .tc main_v40) = _
    after_results_simp
    rw [out0 m ρ c, W2_arg12 m ρ c, W2_arg13 m ρ c]
    rfl
  have h_xt : V3 m ρ c main_v41 = Cert.ReferenceIdeal.ReadP.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11)) := by
    show StableHlo.after hostOps1 (W2 m ρ c) (Proc.devRef .tc main_v41) = _
    after_results_simp
    rw [out0 m ρ c]
    rfl
  have h_wl : V3 m ρ c main_arg4 = (m ((c : Thread nD τ).loc main_arg4)) := by
    show StableHlo.after hostOps1 (W2 m ρ c) (Proc.devRef .tc main_arg4) = _
    after_results_simp
    exact W2_arg4 m ρ c
  have h_wr : V3 m ρ c main_arg6 = (m ((c : Thread nD τ).loc main_arg6)) := by
    show StableHlo.after hostOps1 (W2 m ρ c) (Proc.devRef .tc main_arg6) = _
    after_results_simp
    exact W2_arg6 m ρ c
  have h_bl : V3 m ρ c main_v42 = shapeCast S1x256 (m ((c : Thread nD τ).loc main_arg5)) shapeCasts_S256_S1x256 := by
    show StableHlo.after hostOps1 (W2 m ρ c) (Proc.devRef .tc main_v42) = _
    after_results_simp
    rw [W2_arg5 m ρ c]
    rfl
  rw [h_mean, h_xt, h_wl, h_wr, h_bl]
  exact Cert.RefLayers.layer1_eq (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11)) (m ((c : Thread nD τ).loc main_arg4)) (m ((c : Thread nD τ).loc main_arg5)) (m ((c : Thread nD τ).loc main_arg6)) (m ((c : Thread nD τ).loc main_arg12)) (m ((c : Thread nD τ).loc main_arg13)) _ (fun o => shapeCast_a_1a_apply (m ((c : Thread nD τ).loc main_arg5)) shapeCasts_S256_S1x256 0 o)

/-! ## Layer 2 -/

set_option maxHeartbeats 4000000 in
/-- Region 2's output array is the reference's last layer, before the log-softmax. -/
theorem out2 (c : Dev nD) :
    W6 m ρ c (Proc.devRef .tc main_v65) = Cert.ReferenceIdeal.ReadP.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W6_arr m ρ c 5).trans ?_
  refine (Layer2.output (V5 m ρ) c).trans ?_
  have h_mean : V5 m ρ c main_v62 = Cert.ReferenceIdeal.ReadP.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
    show StableHlo.after hostOps2 (W4 m ρ c) (Proc.devRef .tc main_v62) = _
    after_results_simp
    rw [out1 m ρ c, W4_arg14 m ρ c, W4_arg15 m ρ c]
    rfl
  have h_xt : V5 m ρ c main_v63 = Cert.ReferenceIdeal.ReadP.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13)) := by
    show StableHlo.after hostOps2 (W4 m ρ c) (Proc.devRef .tc main_v63) = _
    after_results_simp
    rw [out1 m ρ c]
    rfl
  have h_wl : V5 m ρ c main_arg7 = (m ((c : Thread nD τ).loc main_arg7)) := by
    show StableHlo.after hostOps2 (W4 m ρ c) (Proc.devRef .tc main_arg7) = _
    after_results_simp
    exact W4_arg7 m ρ c
  have h_wr : V5 m ρ c main_arg9 = (m ((c : Thread nD τ).loc main_arg9)) := by
    show StableHlo.after hostOps2 (W4 m ρ c) (Proc.devRef .tc main_arg9) = _
    after_results_simp
    exact W4_arg9 m ρ c
  have h_bl : V5 m ρ c main_v64 = shapeCast S1x47 (m ((c : Thread nD τ).loc main_arg8)) shapeCasts_S47_S1x47 := by
    show StableHlo.after hostOps2 (W4 m ρ c) (Proc.devRef .tc main_v64) = _
    after_results_simp
    rw [W4_arg8 m ρ c]
    rfl
  rw [h_mean, h_xt, h_wl, h_wr, h_bl]
  exact Cert.RefLayers.layer2_eq (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11)) (m ((c : Thread nD τ).loc main_arg4)) (m ((c : Thread nD τ).loc main_arg5)) (m ((c : Thread nD τ).loc main_arg6)) (m ((c : Thread nD τ).loc main_arg12)) (m ((c : Thread nD τ).loc main_arg13)) (m ((c : Thread nD τ).loc main_arg7)) (m ((c : Thread nD τ).loc main_arg8)) (m ((c : Thread nD τ).loc main_arg9)) (m ((c : Thread nD τ).loc main_arg14)) (m ((c : Thread nD τ).loc main_arg15)) _ (fun o => shapeCast_a_1a_apply (m ((c : Thread nD τ).loc main_arg8)) shapeCasts_S47_S1x47 0 o)

/-! ## The three results at the last boundary -/

set_option maxHeartbeats 4000000 in
/-- The second layer's activations are not touched after region 1. -/
theorem result_penult (c : Dev nD) :
    W7 m ρ c (Proc.devRef .tc main_v43) = Cert.ReferenceIdeal.ReadP.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13)) := by
  refine Eq.trans ?_ (out1 m ρ c)
  show StableHlo.after hostOps3 (W6 m ρ c) (Proc.devRef .tc main_v43) = _
  after_results_simp
  rw [W6_of_ne m ρ c main_v43 (by decide)]
  show StableHlo.after hostOps2 (W4 m ρ c) (Proc.devRef .tc main_v43) = _
  after_results_simp <;> rfl

set_option maxHeartbeats 4000000 in
/-- The last layer's output is not touched by the log-softmax stretch. -/
theorem result_logits (c : Dev nD) :
    W7 m ρ c (Proc.devRef .tc main_v65) = Cert.ReferenceIdeal.ReadP.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine Eq.trans ?_ (out2 m ρ c)
  show StableHlo.after hostOps3 (W6 m ρ c) (Proc.devRef .tc main_v65) = _
  after_results_simp <;> rfl

set_option maxHeartbeats 4000000 in
/-- The log-softmax stretch applies the same fifteen operations as the reference's to the same array. -/
theorem result_logprobs (c : Dev nD) :
    W7 m ρ c (Proc.devRef .tc main_v66) = Cert.ReferenceIdeal.ReadP.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  show StableHlo.after hostOps3 (W6 m ρ c) (Proc.devRef .tc main_v66) = _
  after_results_simp
  simp only [cast_eq]
  rw [out2 m ρ c]
  rfl

end Cert.KernelIdeal.Fold

end
-- ==== Proof.lean ====
/-
  A three-layer neighbourhood-mean graph convolution: the pipelined program against its array-level reference.

  Each layer forms, for every target node, the mean of its sampled neighbours' features (a gather along the source
  indices, a sum into the target rows, a division by the clipped neighbour count), and then
      out = mean · Wlᵀ + b + x_target · Wrᵀ,
  clipped at zero after the first two layers; the last layer's output goes through a row-wise log-softmax. The program
  under proof leaves the aggregation to host operations and computes the linear part of each layer in a pipelined
  region, block of rows by block of rows, as (mean · Wlᵀ + x_target · Wrᵀ) + b with both products taken after a
  conversion to a narrower float format.

  Over the extended reals the format conversions are the identity, a product into a zero accumulator is the plain sum
  over the contracted axis, and the two orders of the three summands agree because addition there is commutative and
  associative; no finiteness of the inputs is used. So each region's output array is the reference's layer (Layer0–2,
  RefLayers), the aggregations and the closing log-softmax are the same host operations applied to equal arrays
  (Fold), and the three results — the log-probabilities, the last layer's output, the second layer's activations —
  agree. The program is its own idealization (no operation was rewritten), so that conjunct holds trivially.
-/
import proofs.«136288_j16209206575331_1_alg».proof.Defs
import proofs.«136288_j16209206575331_1_alg».proof.Proof.Gen.Kernel
import proofs.«136288_j16209206575331_1_alg».proof.Proof.Gen.Kernel.Skeleton
import proofs.«136288_j16209206575331_1_alg».proof.Proof.Gen.Kernel.Launch
import proofs.«136288_j16209206575331_1_alg».proof.Proof.Gen.Kernel.Points
import proofs.«136288_j16209206575331_1_alg».proof.Proof.Gen.Kernel.Frame
import proofs.«136288_j16209206575331_1_alg».proof.Proof.Gen.KernelIdeal
import proofs.«136288_j16209206575331_1_alg».proof.Proof.Gen.KernelIdeal.Skeleton
import proofs.«136288_j16209206575331_1_alg».proof.Proof.Gen.KernelIdeal.Launch
import proofs.«136288_j16209206575331_1_alg».proof.Proof.Gen.KernelIdeal.Points
import proofs.«136288_j16209206575331_1_alg».proof.Proof.Gen.KernelIdeal.Frame
import proofs.«136288_j16209206575331_1_alg».proof.Proof.Gen.ReferenceIdeal
import proofs.«136288_j16209206575331_1_alg».proof.Proof.Gen.Pre_finite_inputs
import proofs.«136288_j16209206575331_1_alg».proof.Proof.RefRunP
import proofs.«136288_j16209206575331_1_alg».proof.Proof.RefReadP
import proofs.«136288_j16209206575331_1_alg».proof.Proof.KRun
import proofs.«136288_j16209206575331_1_alg».proof.Proof.Fold
import Idealize.ShloMosaic.Adequacy
import Idealize.ShloMosaic.Init

noncomputable section

namespace Cert.Proof

open Idealize.ShloMosaic Idealize.SL.Sem

/-- The word-level program runs and leaves its arguments unchanged. -/
theorem frame_kernel : Cert.frame_Kernel :=
  fun m ρ _ => Cert.Kernel.Gen.frame m ρ

/-- So does the same program read over the extended reals. -/
theorem frame_kernelIdeal : Cert.frame_KernelIdeal :=
  fun m ρ _ => Cert.KernelIdeal.Gen.frame m ρ

/-- The reference is host operations only: its run, with the three results dropped. -/
theorem frame_reference : Cert.frame_ReferenceIdeal :=
  fun m ρ _ => (θ_run Cert.ReferenceIdeal.defs _ _).mono (fun _ h c => (h c).2.2.2)
    (Cert.ReferenceIdeal.ValueP.run (F := Ideal) m ρ)

/-- From memories that agree on the sixteen arguments both programs end with the same three result arrays: the
    reference's three stages of the arguments. -/
theorem algebraic : Cert.algebraic_KernelIdeal_ReferenceIdeal := by
  intro m ρ m' ρ' _ hagree
  refine ⟨fun c => Cert.ReferenceIdeal.ReadP.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.ReferenceIdeal.ReadP.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.ReferenceIdeal.ReadP.val_main_v57 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c =>
      ⟨(h c).1.trans (Cert.KernelIdeal.Fold.result_logprobs m ρ c),
       (h c).2.1.trans (Cert.KernelIdeal.Fold.result_logits m ρ c),
       (h c).2.2.1.trans (Cert.KernelIdeal.Fold.result_penult m ρ c),
       (h c).2.2.2⟩) (Cert.KernelIdeal.ResultRun.run_results (F := Ideal) m ρ)
  · refine (θ_run Cert.ReferenceIdeal.defs _ _).mono (fun r h c => ?_) (Cert.ReferenceIdeal.ValueP.run (F := Ideal) m' ρ')
    obtain ⟨e0, e1, e2, e3, e4, e5, e6, e7, e8, e9, e10, e11, e12, e13, e14, e15⟩ := hagree c
    refine ⟨(h c).1.trans ((Cert.ReferenceIdeal.ReadP.val_main_v86_eq m' c).trans ?_),
      (h c).2.1.trans ((Cert.ReferenceIdeal.ReadP.val_main_v85_eq m' c).trans ?_),
      (h c).2.2.1.trans ((Cert.ReferenceIdeal.ReadP.val_main_v57_eq m' c).trans ?_), (h c).2.2.2⟩
    · simp only [e0, e1, e2, e3, e4, e5, e6, e7, e8, e9, e10, e11, e12, e13, e14, e15]
    · simp only [e0, e1, e2, e3, e4, e5, e6, e7, e8, e9, e10, e11, e12, e13, e14, e15]
    · simp only [e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
